-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x2000 : Shape := ⟨2, ![12288, 2000]⟩
abbrev S393216x1 : Shape := ⟨2, ![393216, 1]⟩
abbrev S2000x64 : Shape := ⟨2, ![2000, 64]⟩
abbrev S64 : Shape := ⟨1, ![64]⟩
abbrev S64x64 : Shape := ⟨2, ![64, 64]⟩
abbrev S393216 : Shape := ⟨1, ![393216]⟩
abbrev S_ : Shape := ⟨0, ![]⟩

class Facts : Prop where
  bcast_S_S12288x2000 : S_.BroadcastsInDim S12288x2000 (![] : Fin 0 → Fin S12288x2000.rank)
  reducesTo_S12288x2000_S_d0_1 : S12288x2000.ReducesTo [0, 1] S_
  h_S_ : 0 < S_.numel
  bcast_S_S393216x1 : S_.BroadcastsInDim S393216x1 (![] : Fin 0 → Fin S393216x1.rank)
  reducesTo_S393216x1_S_d0_1 : S393216x1.ReducesTo [0, 1] S_
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S12288x2000 .f32) (main_arg1 : FVec F S393216x1 .f32) (main_arg2 : FVec F S2000x64 .f32) (main_arg3 : FVec F S64 .f32) (main_arg4 : FVec F S64x64 .f32) (main_arg5 : FVec F S64 .f32) (main_arg6 : IVec S393216 32) (main_arg7 : IVec S393216 32) : IVec S_ 1 :=
  let main_v0 : FVec F S12288x2000 .f32 := Host.absf main_arg0
  let main_cst : FVec F S_ .f32 := constant S_ .f32 0x7F800000#32
  let main_v1 : FVec F S12288x2000 .f32 := broadcastInDim S12288x2000 ![] bcast_S_S12288x2000 main_cst
  let main_v2 : IVec S12288x2000 1 := cmpf .olt main_v0 main_v1
  let main_c : IVec S_ 1 := constantI S_ 1 1#1
  let main_v3 : IVec S_ 1 := (fun x v => Host.reduce IntOp.andi x v reducesTo_S12288x2000_S_d0_1 h_S_) main_v2 main_c
  let main_v4 : FVec F S393216x1 .f32 := Host.absf main_arg1
  let main_cst_0 : FVec F S_ .f32 := constant S_ .f32 0x7F800000#32
  let main_v5 : FVec F S393216x1 .f32 := broadcastInDim S393216x1 ![] bcast_S_S393216x1 main_cst_0
  let main_v6 : IVec S393216x1 1 := cmpf .olt main_v4 main_v5
  let main_c_1 : IVec S_ 1 := constantI S_ 1 1#1
  let main_v7 : IVec S_ 1 := (fun x v => Host.reduce IntOp.andi x v reducesTo_S393216x1_S_d0_1 h_S_) main_v6 main_c_1
  let main_v8 : IVec S_ 1 := andi main_v3 main_v7
  let main_v9 : FVec F S2000x64 .f32 := Host.absf main_arg2
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S12288x2000 : Shape := ⟨2, ![12288, 2000]⟩
abbrev S393216x1 : Shape := ⟨2, ![393216, 1]⟩
abbrev S2000x64 : Shape := ⟨2, ![2000, 64]⟩
abbrev S64 : Shape := ⟨1, ![64]⟩
abbrev S64x64 : Shape := ⟨2, ![64, 64]⟩
abbrev S393216 : Shape := ⟨1, ![393216]⟩
abbrev S_ : Shape := ⟨0, ![]⟩
abbrev S12288 : Shape := ⟨1, ![12288]⟩
abbrev S12288x1 : Shape := ⟨2, ![12288, 1]⟩
abbrev S12288x64 : Shape := ⟨2, ![12288, 64]⟩
abbrev S1024x2000 : Shape := ⟨2, ![1024, 2000]⟩
abbrev S1024x1 : Shape := ⟨2, ![1024, 1]⟩
abbrev S1024x64 : Shape := ⟨2, ![1024, 64]⟩
abbrev S393216x64 : Shape := ⟨2, ![393216, 64]⟩
abbrev S1x64 : Shape := ⟨2, ![1, 64]⟩
abbrev S12288x12288 : Shape := ⟨2, ![12288, 12288]⟩
abbrev S2048x64 : Shape := ⟨2, ![2048, 64]⟩
abbrev S2048x2048 : Shape := ⟨2, ![2048, 2048]⟩

abbrev nBuf : Space → Nat
  | .hbm => 80
  | .vmem => 20
  | .smem => 0
  | _ => 0

abbrev bufTy : (tb : Table) → Fin (tcTables nBuf tb) → BufTy
  | .hbm, ⟨0, _⟩ => ⟨S12288x2000, .f32⟩
  | .hbm, ⟨1, _⟩ => ⟨S393216x1, .f32⟩
  | .hbm, ⟨2, _⟩ => ⟨S2000x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S393216, .i32⟩
  | .hbm, ⟨7, _⟩ => ⟨S393216, .i32⟩
  | .hbm, ⟨8, _⟩ => ⟨S_, .f32⟩
  | .hbm, ⟨9, _⟩ => ⟨S393216, .f32⟩
  | .hbm, ⟨10, _⟩ => ⟨S_, .f32⟩
  | .hbm, ⟨11, _⟩ => ⟨S12288, .f32⟩
  | .hbm, ⟨12, _⟩ => ⟨S393216x1, .i32⟩
  | .hbm, ⟨13, _⟩ => ⟨S12288, .f32⟩
  | .hbm, ⟨14, _⟩ => ⟨S_, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S393216x1, .i32⟩
  | .hbm, ⟨21, _⟩ => ⟨S12288, .f32⟩
  | .hbm, ⟨22, _⟩ => ⟨S_, .f32⟩
  | .hbm, ⟨23, _⟩ => ⟨S_, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S12288, .f32⟩
  | .hbm, ⟨28, _⟩ => ⟨S12288, .f32⟩
  | .hbm, ⟨29, _⟩ => ⟨S_, .f32⟩
  | .hbm, ⟨30, _⟩ => ⟨S12288, .f32⟩
  | .hbm, ⟨31, _⟩ => ⟨S12288, .f32⟩
  | .hbm, ⟨32, _⟩ => ⟨S12288x1, .f32⟩
  | .hbm, ⟨33, _⟩ => ⟨S12288x64, .f32⟩
  | .hbm, ⟨34, _⟩ => ⟨S_, .i32⟩
  | .hbm, ⟨35, _⟩ => ⟨S393216, .i32⟩
  | .hbm, ⟨36, _⟩ => ⟨S393216, .i1⟩
  | .hbm, ⟨37, _⟩ => ⟨S_, .i32⟩
  | .hbm, ⟨38, _⟩ => ⟨S393216, .i32⟩
  | .hbm, ⟨39, _⟩ => ⟨S393216, .i32⟩
  | .hbm, ⟨40, _⟩ => ⟨S393216, .i32⟩
  | .hbm, ⟨41, _⟩ => ⟨S393216x1, .i32⟩
  | .hbm, ⟨42, _⟩ => ⟨S393216x64, .f32⟩
  | .hbm, ⟨43, _⟩ => ⟨S393216x64, .f32⟩
  | .hbm, ⟨44, _⟩ => ⟨S393216x64, .f32⟩
  | .hbm, ⟨45, _⟩ => ⟨S_, .f32⟩
  | .hbm, ⟨46, _⟩ => ⟨S12288x64, .f32⟩
  | .hbm, ⟨47, _⟩ => ⟨S393216x1, .i32⟩
  | .hbm, ⟨48, _⟩ => ⟨S12288x64, .f32⟩
  | .hbm, ⟨49, _⟩ => ⟨S12288x1, .f32⟩
  | .hbm, ⟨50, _⟩ => ⟨S12288x64, .f32⟩
  | .hbm, ⟨51, _⟩ => ⟨S12288x64, .f32⟩
  | .hbm, ⟨52, _⟩ => ⟨S1x64, .f32⟩
  | .hbm, ⟨53, _⟩ => ⟨S12288x64, .f32⟩
  | .hbm, ⟨54, _⟩ => ⟨S12288x64, .f32⟩
  | .hbm, ⟨55, _⟩ => ⟨S12288x1, .f32⟩
  | .hbm, ⟨56, _⟩ => ⟨S12288x64, .f32⟩
  | .hbm, ⟨57, _⟩ => ⟨S_, .i32⟩
  | .hbm, ⟨58, _⟩ => ⟨S393216, .i32⟩
  | .hbm, ⟨59, _⟩ => ⟨S393216, .i1⟩
  | .hbm, ⟨60, _⟩ => ⟨S_, .i32⟩
  | .hbm, ⟨61, _⟩ => ⟨S393216, .i32⟩
  | .hbm, ⟨62, _⟩ => ⟨S393216, .i32⟩
  | .hbm, ⟨63, _⟩ => ⟨S393216, .i32⟩
  | .hbm, ⟨64, _⟩ => ⟨S393216x1, .i32⟩
  | .hbm, ⟨65, _⟩ => ⟨S393216x64, .f32⟩
  | .hbm, ⟨66, _⟩ => ⟨S393216x64, .f32⟩
  | .hbm, ⟨67, _⟩ => ⟨S393216x64, .f32⟩
  | .hbm, ⟨68, _⟩ => ⟨S_, .f32⟩
  | .hbm, ⟨69, _⟩ => ⟨S12288x64, .f32⟩
  | .hbm, ⟨70, _⟩ => ⟨S393216x1, .i32⟩
  | .hbm, ⟨71, _⟩ => ⟨S12288x64, .f32⟩
  | .hbm, ⟨72, _⟩ => ⟨S12288x1, .f32⟩
  | .hbm, ⟨73, _⟩ => ⟨S12288x64, .f32⟩
  | .hbm, ⟨74, _⟩ => ⟨S12288x64, .f32⟩
  | .hbm, ⟨75, _⟩ => ⟨S1x64, .f32⟩
  | .hbm, ⟨76, _⟩ => ⟨S12288x64, .f32⟩
  | .hbm, ⟨77, _⟩ => ⟨S12288x64, .f32⟩
  | .hbm, ⟨78, _⟩ => ⟨S12288x64, .bf16⟩
  | .hbm, ⟨79, _⟩ => ⟨S12288x12288, .f32⟩
  | .local _ .vmem, ⟨0, _⟩ => ⟨S1024x2000, .f32⟩
  | .local _ .vmem, ⟨1, _⟩ => ⟨S1024x2000, .f32⟩
  | .local _ .vmem, ⟨2, _⟩ => ⟨S1024x1, .f32⟩
  | .local _ .vmem, ⟨3, _⟩ => ⟨S1024x1, .f32⟩
  | .local _ .vmem, ⟨4, _⟩ => ⟨S2000x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x1, .f32⟩
  | .local _ .vmem, ⟨10, _⟩ => ⟨S1024x1, .f32⟩
  | .local _ .vmem, ⟨11, _⟩ => ⟨S64x64, .f32⟩
  | .local _ .vmem, ⟨12, _⟩ => ⟨S1024x64, .f32⟩
  | .local _ .vmem, ⟨13, _⟩ => ⟨S1024x64, .f32⟩
  | .local _ .vmem, ⟨14, _⟩ => ⟨S2048x64, .bf16⟩
  | .local _ .vmem, ⟨15, _⟩ => ⟨S2048x64, .bf16⟩
  | .local _ .vmem, ⟨16, _⟩ => ⟨S2048x64, .bf16⟩
  | .local _ .vmem, ⟨17, _⟩ => ⟨S2048x64, .bf16⟩
  | .local _ .vmem, ⟨18, _⟩ => ⟨S2048x2048, .f32⟩
  | .local _ .vmem, ⟨19, _⟩ => ⟨S2048x2048, .f32⟩
  | _, _ => ⟨S12288x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![6, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  shapeCasts_S12288_S12288x1 : S12288.ShapeCasts S12288x1
  inb_S1024x2000_S1024x2000_0_0 : ∀ a, (![0, 0] : Fin 2 → Nat) a + S1024x2000.size a ≤ S1024x2000.size a
  h_S1024x2000 : 0 < S1024x2000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2000 : S1024x1.Broadcasts S1024x2000
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S1024x64_S1024x64_0_0 : ∀ a, (![0, 0] : Fin 2 → Nat) a + S1024x64.size a ≤ S1024x64.size a
  h_S1024x64 : 0 < S1024x64.numel
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  bcast_S12288_S12288x1_0 : S12288.BroadcastsInDim S12288x1 (![0] : Fin 1 → Fin S12288x1.rank)
  bcast_S12288x1_S12288x64_0_1 : S12288x1.BroadcastsInDim S12288x64 (![0, 1] : Fin 2 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  shapeCasts_S1024x64_S1024x64 : S1024x64.ShapeCasts S1024x64
  broadcasts_S1024x1_S1024x64 : S1024x1.Broadcasts S1024x64
  inb_S64x64_S64x64_0_0 : ∀ a, (![0, 0] : Fin 2 → Nat) a + S64x64.size a ≤ S64x64.size a
  h_S64x64 : 0 < S64x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  scatter_S12288_S393216x1_S393216_n_0_0_1_wf : ScatterDims.WF S12288 S393216x1 S393216 [] [0] [0] 1
  dot_S1024x2000_S2000x64_S1024x64_1_0_0_1_n_n_wf : DotDims.WF S1024x2000 S2000x64 S1024x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S1024x64_S64x64_S1024x64_1_0_0_1_n_n_wf : DotDims.WF S1024x64 S64x64 S1024x64 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2000.size a ≤ S12288x2000.size a
  hwx0_0 : ∀ i : grid0.Coords, EltTy.bits .f32 = 32 ∨ (Rect.block (s := S12288x2000) S1024x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S12288x1.size a
  hwx0_1 : ∀ i : grid0.Coords, EltTy.bits .f32 = 32 ∨ (Rect.block (s := S12288x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S2000x64.size a
  hwx0_2 : ∀ i : grid0.Coords, EltTy.bits .f32 = 32 ∨ (Rect.block (s := S2000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S12288x64.size a
  hwx0_3 : ∀ i : grid0.Coords, EltTy.bits .f32 = 32 ∨ (Rect.block (s := S12288x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S12288x64.size a
  hwx1_0 : ∀ i : grid1.Coords, EltTy.bits .f32 = 32 ∨ (Rect.block (s := S12288x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S12288x1.size a
  hwx1_1 : ∀ i : grid1.Coords, EltTy.bits .f32 = 32 ∨ (Rect.block (s := S12288x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S12288x64.size a
  hwx1_3 : ∀ i : grid1.Coords, EltTy.bits .f32 = 32 ∨ (Rect.block (s := S12288x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S12288x64.size a
  hwx2_0 : ∀ i : grid2.Coords, EltTy.bits .bf16 = 32 ∨ (Rect.block (s := S12288x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S12288x64.size a
  hwx2_1 : ∀ i : grid2.Coords, EltTy.bits .bf16 = 32 ∨ (Rect.block (s := S12288x64) S2048x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S12288x12288.size a
  hwx2_2 : ∀ i : grid2.Coords, EltTy.bits .f32 = 32 ∨ (Rect.block (s := S12288x12288) S2048x2048.size (cc2_transform_2 i) (hinb2_2 i)).WholeWords (EltTy.packing .f32)

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def dot_S1024x2000_S2000x64_S1024x64_1_0_0_1_n_n : DotDims S1024x2000 S2000x64 S1024x64 where
  lhsContracting := [1]
  rhsContracting := [0]
  lhsNonContracting := [0]
  rhsNonContracting := [1]
  lhsBatch := []
  rhsBatch := []
  wf := dot_S1024x2000_S2000x64_S1024x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S1024x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x2000 : Shape := ⟨2, ![12288, 2000]⟩
abbrev S393216x1 : Shape := ⟨2, ![393216, 1]⟩
abbrev S2000x64 : Shape := ⟨2, ![2000, 64]⟩
abbrev S64 : Shape := ⟨1, ![64]⟩
abbrev S64x64 : Shape := ⟨2, ![64, 64]⟩
abbrev S393216 : Shape := ⟨1, ![393216]⟩
abbrev S_ : Shape := ⟨0, ![]⟩
abbrev S12288 : Shape := ⟨1, ![12288]⟩
abbrev S12288x1 : Shape := ⟨2, ![12288, 1]⟩
abbrev S12288x64 : Shape := ⟨2, ![12288, 64]⟩
abbrev S393216x64 : Shape := ⟨2, ![393216, 64]⟩
abbrev S1x64 : Shape := ⟨2, ![1, 64]⟩
abbrev S64x12288 : Shape := ⟨2, ![64, 12288]⟩
abbrev S12288x12288 : Shape := ⟨2, ![12288, 12288]⟩

abbrev nBuf : Space → Nat
  | .hbm => 84
  | .vmem => 0
  | .smem => 0
  | _ => 0

abbrev bufTy : (tb : Table) → Fin (tcTables nBuf tb) → BufTy
  | .hbm, ⟨0, _⟩ => ⟨S12288x2000, .f32⟩
  | .hbm, ⟨1, _⟩ => ⟨S393216x1, .f32⟩
  | .hbm, ⟨2, _⟩ => ⟨S2000x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S393216, .i32⟩
  | .hbm, ⟨7, _⟩ => ⟨S393216, .i32⟩
  | .hbm, ⟨8, _⟩ => ⟨S_, .f32⟩
  | .hbm, ⟨9, _⟩ => ⟨S393216, .f32⟩
  | .hbm, ⟨10, _⟩ => ⟨S_, .f32⟩
  | .hbm, ⟨11, _⟩ => ⟨S12288, .f32⟩
  | .hbm, ⟨12, _⟩ => ⟨S393216x1, .i32⟩
  | .hbm, ⟨13, _⟩ => ⟨S12288, .f32⟩
  | .hbm, ⟨14, _⟩ => ⟨S_, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S393216x1, .i32⟩
  | .hbm, ⟨21, _⟩ => ⟨S12288, .f32⟩
  | .hbm, ⟨22, _⟩ => ⟨S_, .f32⟩
  | .hbm, ⟨23, _⟩ => ⟨S_, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S12288, .f32⟩
  | .hbm, ⟨28, _⟩ => ⟨S12288, .f32⟩
  | .hbm, ⟨29, _⟩ => ⟨S_, .f32⟩
  | .hbm, ⟨30, _⟩ => ⟨S12288, .f32⟩
  | .hbm, ⟨31, _⟩ => ⟨S12288, .f32⟩
  | .hbm, ⟨32, _⟩ => ⟨S12288x1, .f32⟩
  | .hbm, ⟨33, _⟩ => ⟨S12288x2000, .f32⟩
  | .hbm, ⟨34, _⟩ => ⟨S12288x2000, .f32⟩
  | .hbm, ⟨35, _⟩ => ⟨S12288x64, .f32⟩
  | .hbm, ⟨36, _⟩ => ⟨S_, .i32⟩
  | .hbm, ⟨37, _⟩ => ⟨S393216, .i32⟩
  | .hbm, ⟨38, _⟩ => ⟨S393216, .i1⟩
  | .hbm, ⟨39, _⟩ => ⟨S_, .i32⟩
  | .hbm, ⟨40, _⟩ => ⟨S393216, .i32⟩
  | .hbm, ⟨41, _⟩ => ⟨S393216, .i32⟩
  | .hbm, ⟨42, _⟩ => ⟨S393216, .i32⟩
  | .hbm, ⟨43, _⟩ => ⟨S393216x1, .i32⟩
  | .hbm, ⟨44, _⟩ => ⟨S393216x64, .f32⟩
  | .hbm, ⟨45, _⟩ => ⟨S393216x64, .f32⟩
  | .hbm, ⟨46, _⟩ => ⟨S393216x64, .f32⟩
  | .hbm, ⟨47, _⟩ => ⟨S_, .f32⟩
  | .hbm, ⟨48, _⟩ => ⟨S12288x64, .f32⟩
  | .hbm, ⟨49, _⟩ => ⟨S393216x1, .i32⟩
  | .hbm, ⟨50, _⟩ => ⟨S12288x64, .f32⟩
  | .hbm, ⟨51, _⟩ => ⟨S12288x1, .f32⟩
  | .hbm, ⟨52, _⟩ => ⟨S12288x64, .f32⟩
  | .hbm, ⟨53, _⟩ => ⟨S12288x64, .f32⟩
  | .hbm, ⟨54, _⟩ => ⟨S1x64, .f32⟩
  | .hbm, ⟨55, _⟩ => ⟨S12288x64, .f32⟩
  | .hbm, ⟨56, _⟩ => ⟨S12288x64, .f32⟩
  | .hbm, ⟨57, _⟩ => ⟨S12288x1, .f32⟩
  | .hbm, ⟨58, _⟩ => ⟨S12288x64, .f32⟩
  | .hbm, ⟨59, _⟩ => ⟨S12288x64, .f32⟩
  | .hbm, ⟨60, _⟩ => ⟨S12288x64, .f32⟩
  | .hbm, ⟨61, _⟩ => ⟨S_, .i32⟩
  | .hbm, ⟨62, _⟩ => ⟨S393216, .i32⟩
  | .hbm, ⟨63, _⟩ => ⟨S393216, .i1⟩
  | .hbm, ⟨64, _⟩ => ⟨S_, .i32⟩
  | .hbm, ⟨65, _⟩ => ⟨S393216, .i32⟩
  | .hbm, ⟨66, _⟩ => ⟨S393216, .i32⟩
  | .hbm, ⟨67, _⟩ => ⟨S393216, .i32⟩
  | .hbm, ⟨68, _⟩ => ⟨S393216x1, .i32⟩
  | .hbm, ⟨69, _⟩ => ⟨S393216x64, .f32⟩
  | .hbm, ⟨70, _⟩ => ⟨S393216x64, .f32⟩
  | .hbm, ⟨71, _⟩ => ⟨S393216x64, .f32⟩
  | .hbm, ⟨72, _⟩ => ⟨S_, .f32⟩
  | .hbm, ⟨73, _⟩ => ⟨S12288x64, .f32⟩
  | .hbm, ⟨74, _⟩ => ⟨S393216x1, .i32⟩
  | .hbm, ⟨75, _⟩ => ⟨S12288x64, .f32⟩
  | .hbm, ⟨76, _⟩ => ⟨S12288x1, .f32⟩
  | .hbm, ⟨77, _⟩ => ⟨S12288x64, .f32⟩
  | .hbm, ⟨78, _⟩ => ⟨S12288x64, .f32⟩
  | .hbm, ⟨79, _⟩ => ⟨S1x64, .f32⟩
  | .hbm, ⟨80, _⟩ => ⟨S12288x64, .f32⟩
  | .hbm, ⟨81, _⟩ => ⟨S12288x64, .f32⟩
  | .hbm, ⟨82, _⟩ => ⟨S64x12288, .f32⟩
  | .hbm, ⟨83, _⟩ => ⟨S12288x12288, .f32⟩
  | _, _ => ⟨S12288x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  bcast_S12288_S12288x1_0 : S12288.BroadcastsInDim S12288x1 (![0] : Fin 1 → Fin S12288x1.rank)
  bcast_S12288x1_S12288x2000_0_1 : S12288x1.BroadcastsInDim S12288x2000 (![0, 1] : Fin 2 → Fin S12288x2000.rank)
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  bcast_S12288x1_S12288x64_0_1 : S12288x1.BroadcastsInDim S12288x64 (![0, 1] : Fin 2 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  scatter_S12288_S393216x1_S393216_n_0_0_1_wf : ScatterDims.WF S12288 S393216x1 S393216 [] [0] [0] 1
  dot_S12288x2000_S2000x64_S12288x64_1_0_0_1_n_n_wf : DotDims.WF S12288x2000 S2000x64 S12288x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S12288x64_S64x64_S12288x64_1_0_0_1_n_n_wf : DotDims.WF S12288x64 S64x64 S12288x64 [1] [0] [0] [1] [] []
  dot_S12288x64_S64x12288_S12288x12288_1_0_0_1_n_n_wf : DotDims.WF S12288x64 S64x12288 S12288x12288 [1] [0] [0] [1] [] []

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def dot_S12288x2000_S2000x64_S12288x64_1_0_0_1_n_n : DotDims S12288x2000 S2000x64 S12288x64 where
  lhsContracting := [1]
  rhsContracting := [0]
  lhsNonContracting := [0]
  rhsNonContracting := [1]
  lhsBatch := []
  rhsBatch := []
  wf := dot_S12288x2000_S2000x64_S12288x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.Bits.Region0.lean ====
/-
  Region 0 of the program: the pallas_call of the scaled matrix product, one of its twelve grid points at a time.
  At a point the body reads three blocks — 1024 rows of the left operand, the 1024 matching entries of the
  scale column, the whole right operand — and stores, into the output block of 1024 rows, the product of the
  scaled rows with the right operand. Stated at a parameter `V` (what the core's buffers hold when the
  region is entered): the blocks, what the body leaves in the output block, the body's triple, and the
  pipeline's proof data with its body obligation. Generic in the float instance.
-/
import proofs.«127199_j2207613190405_2_alg».proof.Proof.Gen.Kernel.Launch
import proofs.«127199_j2207613190405_2_alg».proof.Proof.Gen.Kernel.Skeleton
import proofs.«127199_j2207613190405_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index had not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each is the whole of its staging buffer. -/
abbrev rL0 : Rect S1024x2000 := Rect.unit (s := S1024x2000) ![0, 0] S1024x2000.size inb_S1024x2000_S1024x2000_0_0
abbrev rS0 : Rect S1024x1 := Rect.unit (s := S1024x1) ![0, 0] S1024x1.size inb_S1024x1_S1024x1_0_0
abbrev rR0 : Rect S2000x64 := Rect.unit (s := S2000x64) ![0, 0] S2000x64.size inb_S2000x64_S2000x64_0_0
abbrev rO0 : Rect S1024x64 := Rect.unit (s := S1024x64) ![0, 0] S1024x64.size inb_S1024x64_S1024x64_0_0

/-- What the body leaves in the output window's buffer, from the three input blocks: its one store, of the product. -/
def out0_3 (x0 : Vec F S1024x2000 .f32) (x1 : Vec F S1024x1 .f32) (x2 : Vec F S2000x64 .f32) : Vec F S1024x64 .f32 :=
  View.canon [⟨rO0, k0_pay1 (View.ld x0 rL0) (View.ld x1 rS0) (View.ld x2 rR0)⟩]

/-- The one store covers the output buffer. -/
theorem cover0_3 (p0 : Vec F S1024x64 .f32) (y : S1024x64.Idx) :
    ∃ pc ∈ ([⟨rO0, p0⟩] : List (View.Piece (Elt F) S1024x64 .f32)), y ∈ pc.1.set :=
  View.cover_of_tiled [⟨rO0, p0⟩] S1024x64.size (by rfl) y

set_option maxHeartbeats 1000000 in
/-- The body on whole staging memrefs — the inputs' at contents `x0 x1 x2`, the output's at anything — runs to its
    continuation with the inputs' as they were and the output's at `out0_3` of them. -/
theorem sound_kernel0 (c : Dev nD) (E : Set ℕ) (i : grid0.Coords)
    (arg1 : Memref sig .tc .vmem S1024x2000 .f32) (harg1 : arg1.IsWhole) (arg2 : Memref sig .tc .vmem S1024x1 .f32) (harg2 : arg2.IsWhole)
    (arg3 : Memref sig .tc .vmem S2000x64 .f32) (harg3 : arg3.IsWhole) (arg4 : Memref sig .tc .vmem S1024x64 .f32) (harg4 : arg4.IsWhole)
    (x0 : Vec F S1024x2000 .f32) (x1 : Vec F S1024x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer still at its block and the output's at `out0_3` of the three input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
/-
  Region 1 of the program: the pallas_call of the scaled matrix product, one of its twelve grid points at a time.
  At a point the body reads three blocks — 1024 rows of the left operand, the 1024 matching entries of the
  scale column, the whole right operand — and stores, into the output block of 1024 rows, the product of the
  scaled rows with the right operand. Stated at a parameter `V` (what the core's buffers hold when the
  region is entered): the blocks, what the body leaves in the output block, the body's triple, and the
  pipeline's proof data with its body obligation. Generic in the float instance.
-/
import proofs.«127199_j2207613190405_2_alg».proof.Proof.Gen.Kernel.Launch
import proofs.«127199_j2207613190405_2_alg».proof.Proof.Gen.Kernel.Skeleton
import proofs.«127199_j2207613190405_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    kept it from the point before (its block index had not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is the whole of its staging buffer. -/
abbrev rL1 : Rect S1024x64 := Rect.unit (s := S1024x64) ![0, 0] S1024x64.size inb_S1024x64_S1024x64_0_0
abbrev rS1 : Rect S1024x1 := Rect.unit (s := S1024x1) ![0, 0] S1024x1.size inb_S1024x1_S1024x1_0_0
abbrev rR1 : Rect S64x64 := Rect.unit (s := S64x64) ![0, 0] S64x64.size inb_S64x64_S64x64_0_0
abbrev rO1 : Rect S1024x64 := Rect.unit (s := S1024x64) ![0, 0] S1024x64.size inb_S1024x64_S1024x64_0_0

/-- What the body leaves in the output window's buffer, from the three input blocks: its one store, of the product. -/
def out1_3 (x0 : Vec F S1024x64 .f32) (x1 : Vec F S1024x1 .f32) (x2 : Vec F S64x64 .f32) : Vec F S1024x64 .f32 :=
  View.canon [⟨rO1, k1_pay1 (View.ld x0 rL1) (View.ld x1 rS1) (View.ld x2 rR1)⟩]

/-- The one store covers the output buffer. -/
theorem cover1_3 (p0 : Vec F S1024x64 .f32) (y : S1024x64.Idx) :
    ∃ pc ∈ ([⟨rO1, p0⟩] : List (View.Piece (Elt F) S1024x64 .f32)), y ∈ pc.1.set :=
  View.cover_of_tiled [⟨rO1, p0⟩] S1024x64.size (by rfl) y

set_option maxHeartbeats 1000000 in
/-- The body on whole staging memrefs — the inputs' at contents `x0 x1 x2`, the output's at anything — runs to its
    continuation with the inputs' as they were and the output's at `out1_3` of them. -/
theorem sound_kernel1 (c : Dev nD) (E : Set ℕ) (i : grid1.Coords)
    (arg1 : Memref sig .tc .vmem S1024x64 .f32) (harg1 : arg1.IsWhole) (arg2 : Memref sig .tc .vmem S1024x1 .f32) (harg2 : arg2.IsWhole)
    (arg3 : Memref sig .tc .vmem S64x64 .f32) (harg3 : arg3.IsWhole) (arg4 : Memref sig .tc .vmem S1024x64 .f32) (harg4 : arg4.IsWhole)
    (x0 : Vec F S1024x64 .f32) (x1 : Vec F S1024x1 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer still at its block and the output's at `out1_3` of the three input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Region2.lean ====
/-
  Region 2 of the program: the pallas_call of the inner-product decode, one of its 6 × 6 grid points at a time.
  At point (a, b) the body reads two blocks of 2048 rows of the SAME array — block a through the first window,
  block b through the second — and stores, into the 2048 × 2048 output block (a, b), the products of the rows of
  the first with the rows of the second. Stated at a parameter `V` (what the core's buffers hold when the region
  is entered): the blocks, what the body leaves in the output block, the body's triple, and the pipeline's proof
  data with its body obligation. The two input windows lie on one array, so the core holds that array through
  each window at one half of the full share. Generic in the float instance.
-/
import proofs.«127199_j2207613190405_2_alg».proof.Proof.Gen.Kernel.Launch
import proofs.«127199_j2207613190405_2_alg».proof.Proof.Gen.Kernel.Skeleton
import proofs.«127199_j2207613190405_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the pipeline fetched it there or
    kept it from the point before (its block index had not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each is the whole of its staging buffer. -/
abbrev rI2 : Rect S2048x64 := Rect.unit (s := S2048x64) ![0, 0] S2048x64.size inb_S2048x64_S2048x64_0_0
abbrev rO2 : Rect S2048x2048 := Rect.unit (s := S2048x2048) ![0, 0] S2048x2048.size inb_S2048x2048_S2048x2048_0_0

/-- What the body leaves in the output window's buffer, from the two input blocks: its one store, of the product. -/
def out2_2 (x0 : Vec F S2048x64 .bf16) (x1 : Vec F S2048x64 .bf16) : Vec F S2048x2048 .f32 :=
  View.canon [⟨rO2, k2_pay1 (View.ld x0 rI2) (View.ld x1 rI2)⟩]

/-- The one store covers the output buffer. -/
theorem cover2_2 (p0 : Vec F S2048x2048 .f32) (y : S2048x2048.Idx) :
    ∃ pc ∈ ([⟨rO2, p0⟩] : List (View.Piece (Elt F) S2048x2048 .f32)), y ∈ pc.1.set :=
  View.cover_of_tiled [⟨rO2, p0⟩] S2048x2048.size (by rfl) y

set_option maxHeartbeats 1000000 in
/-- The body on whole staging memrefs — the inputs' at contents `x0 x1`, the output's at anything — runs to its
    continuation with the inputs' as they were and the output's at `out2_2` of them. -/
theorem sound_kernel2 (c : Dev nD) (E : Set ℕ) (i : grid2.Coords)
    (arg2 : Memref sig .tc .vmem S2048x64 .bf16) (harg2 : arg2.IsWhole) (arg3 : Memref sig .tc .vmem S2048x64 .bf16) (harg3 : arg3.IsWhole)
    (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each input's
    buffer still at its block and the output's at `out2_2` of the two input blocks; nothing owed; the shared input
    array held at the left half of the full share through window 0 and at the right half through window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Region2Arrays.lean ====
/-
  Region 2's arrays against the core's unscoped buffers. The region's two input windows read ONE array and its
  output window another, so behind the three windows stand two buffers. At the region's entry the core holds each
  unscoped buffer whole at the full share; the pipeline wants the shared input array once per window, at the left
  half of the full share through window 0 and at the right half through window 1, and the output array at the full
  share. The full share is the sum of its two halves, so the shared array splits at entry and joins back at exit,
  where both windows still hold it at the same contents (an input array is never written).
  Generic in the float instance.
-/
import proofs.«127199_j2207613190405_2_alg».proof.Proof.Bits.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct references behind the three windows: the shared input array and the output array. -/
theorem arrRefs2 : Finset.univ.image (Pipeline.arrRef spec2) = {main_v53, main_v54} := by decide

/-- The shares the core holds the windows' arrays at: the two halves of the full share for the two input windows,
    the full share for the output window. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- ENTRY: the core's unscoped buffers at V are region 2's arrays at the proof data's entry contents (the shared array
    split into its two half shares) and the unscoped rest. -/
theorem arrays2_of_unscopedBufs (c : Dev nD) :
    (unscopedBufs c (V c) : sProp 𝕄) ⊢ iprop((dat2 V c).arrays ((dat2 V c).arrAt · 0) ∗ Pipeline.unscopedRest spec2 c (V c)) := by
  rw [Pipeline.PerCore.unscopedBufs_split₀ (fun _ (_ : Unit) => cfg2) () c winFacts₀2.arr_unscoped (V c)]
  refine sep_mono ?_ .rfl
  unfold Pipeline.arrBufs Dat.arrays
  rw [arrRefs2, bigSep_insert (by decide), bigSep_singleton, bigSep_W2]
  rw [(arr_whole2 0).set_eq_univ, (arr_whole2 2).set_eq_univ, share2_0, share2_1, share2_2]
  show iprop(((c : Thread nD τ).loc main_v53 ↦{fullShare} V c main_v53) ∗ ((c : Thread nD τ).loc main_v54 ↦{fullShare} V c main_v54))
    ⊢ iprop(((c : Thread nD τ).loc main_v53 ↦{fullShare.left} V c main_v53) ∗ ((c : Thread nD τ).loc main_v53 ↦{fullShare.right} V c main_v53)
        ∗ ((c : Thread nD τ).loc main_v54 ↦{fullShare} V c main_v54))
  iintro ⟨H53, H54⟩
  ihave H := (pointsTo_share (PosShare.mem_left_op_right fullShare)).1 $$ H53
  icases H with ⟨Hl, Hr⟩
  isplitl [Hl]; · iexact Hl
  isplitl [Hr]; · iexact Hr
  iexact H54

/-- EXIT: the arrays at their final contents and the unscoped rest at V are the core's unscoped buffers at any valuation
    V' that has the arrays at those contents and agrees with V off them (the two half shares of the shared input array
    joined back: both windows hold it at V' of the one reference, so the halves are of one contents). -/
theorem unscopedBufs_of_arrays2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c)) ⊢ (unscopedBufs c V' : sProp 𝕄) := by
  rw [Pipeline.PerCore.unscopedBufs_split₀ (fun _ (_ : Unit) => cfg2) () c winFacts₀2.arr_unscoped V']
  refine sep_mono ?_ (Entails.of_eq ?_)
  · unfold Pipeline.arrBufs Dat.arrays
    rw [arrRefs2, bigSep_insert (by decide), bigSep_singleton, bigSep_W2]
    rw [(arr_whole2 0).set_eq_univ, (arr_whole2 2).set_eq_univ, share2_0, share2_1, share2_2]
    dsimp only
    rw [hF 0, hF 1, hF 2]
    show iprop(((c : Thread nD τ).loc main_v53 ↦{fullShare.left} V' main_v53) ∗ ((c : Thread nD τ).loc main_v53 ↦{fullShare.right} V' main_v53)
        ∗ ((c : Thread nD τ).loc main_v54 ↦{fullShare} V' main_v54))
      ⊢ iprop(((c : Thread nD τ).loc main_v53 ↦{fullShare} V' main_v53) ∗ ((c : Thread nD τ).loc main_v54 ↦{fullShare} V' main_v54))
    iintro ⟨Hl, Hr, H54⟩
    isplitl [Hl Hr]
    · iapply (pointsTo_share (PosShare.mem_left_op_right fullShare)).2
      isplitl [Hl]; · iexact Hl
      iexact Hr
    iexact H54
  · unfold Pipeline.unscopedRest
    exact bigSep_congr fun b hb => by rw [hrest b (Finset.mem_sdiff.mp hb).2]

end Cert.Kernel.Hand

end
-- ==== Proof.Bits.Run.lean ====
/-
  The whole run of the program: @main as ten segments — five stretches of host operations, the first scaled
  matrix product, a stretch, the second scaled matrix product, a stretch, the inner-product decode — from the
  launch to the return, with what every unscoped buffer holds at every boundary. Between two segments the core holds
  each unscoped buffer whole at a named valuation: the launch contents, then what each host stretch computes from
  them, then, after a pallas_call, the same valuation with the call's output array replaced by what its pipeline
  leaves there (the fold of its write-backs). The final theorem says every weakly fair execution terminates and the
  final memory holds, at every unscoped buffer, the last valuation. Generic in the float instance.
-/
import proofs.«127199_j2207613190405_2_alg».proof.Proof.Bits.Region0
import proofs.«127199_j2207613190405_2_alg».proof.Proof.Bits.Region1
import proofs.«127199_j2207613190405_2_alg».proof.Proof.Bits.Region2
import proofs.«127199_j2207613190405_2_alg».proof.Proof.Bits.Region2Arrays
import proofs.«127199_j2207613190405_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three pallas_calls leave in their output arrays -/

/-- The unknowns of the boundary valuations, from what each pallas_call's output array holds after it (`o6` after the first,
    `o8` after the second, `o10` after the third); any other entry is never read. -/
def mkOuts (o6 : (c : Dev nD) → Buf (Elt F) ((c : Thread nD τ).loc main_v14)) (o8 : (c : Dev nD) → Buf (Elt F) ((c : Thread nD τ).loc main_v34))
    (o10 : (c : Dev nD) → Buf (Elt F) ((c : Thread nD τ).loc main_v54)) : Outs (F := F) := fun J r c =>
  if h6 : J = 6 ∧ r = main_v14 then h6.2 ▸ o6 c
  else if h8 : J = 8 ∧ r = main_v34 then h8.2 ▸ o8 c
  else if h10 : J = 10 ∧ r = main_v54 then h10.2 ▸ o10 c
  else m ((c : Thread nD τ).loc r)

/-- The core's buffers read at the TensorCore's references when the first pallas_call is entered. -/
abbrev E5 : (c : Dev nD) → (b : Ref sig .tc) → Buf (Elt F) ((c : Thread nD τ).loc b) := fun c b => V5 m c b
/-- The first pallas_call's output array after it: the fold of its twelve write-backs. -/
def o6 (c : Dev nD) : Buf (Elt F) ((c : Thread nD τ).loc main_v14) := (dat0 (E5 m) c).arrAt 3 cfg0.N
abbrev outsA : Outs (F := F) := mkOuts m (o6 m) (fun c => m ((c : Thread nD τ).loc main_v34)) (fun c => m ((c : Thread nD τ).loc main_v54))
/-- The core's buffers when the second pallas_call is entered. -/
abbrev E7 : (c : Dev nD) → (b : Ref sig .tc) → Buf (Elt F) ((c : Thread nD τ).loc b) := fun c b => V7 m (outsA m) c b
def o8 (c : Dev nD) : Buf (Elt F) ((c : Thread nD τ).loc main_v34) := (dat1 (E7 m) c).arrAt 3 cfg1.N
abbrev outsB : Outs (F := F) := mkOuts m (o6 m) (o8 m) (fun c => m ((c : Thread nD τ).loc main_v54))
/-- The core's buffers when the third pallas_call is entered. -/
abbrev E9 : (c : Dev nD) → (b : Ref sig .tc) → Buf (Elt F) ((c : Thread nD τ).loc b) := fun c b => V9 m (outsB m) c b
def o10 (c : Dev nD) : Buf (Elt F) ((c : Thread nD τ).loc main_v54) := (dat2 (E9 m) c).arrAt 2 cfg2.N
/-- The unknowns, all three known. -/
abbrev outs : Outs (F := F) := mkOuts m (o6 m) (o8 m) (o10 m)

theorem outs_6 (c : Dev nD) : outs m 6 main_v14 c = o6 m c := rfl
theorem outs_8 (c : Dev nD) : outs m 8 main_v34 c = o8 m c := rfl
theorem outs_10 (c : Dev nD) : outs m 10 main_v54 c = o10 m c := rfl
theorem V7_outs (c : Dev nD) : V7 m (outs m) c = V7 m (outsA m) c := rfl
theorem V9_outs (c : Dev nD) : V9 m (outs m) c = V9 m (outsB m) c := rfl

/-! ## The boundary valuations at the regions' arrays -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem o6_eq (c : Dev nD) : (dat0 (E5 m) c).arrAt 3 cfg0.N = o6 m c := by unfold o6; rfl
theorem o8_eq (c : Dev nD) : (dat1 (E7 m) c).arrAt 3 cfg1.N = o8 m c := by unfold o8; rfl
theorem o10_eq (c : Dev nD) : (dat2 (E9 m) c).arrAt 2 cfg2.N = o10 m c := by unfold o10; rfl

theorem V6_v14 (c : Dev nD) : V6 m (outs m) c main_v14 = o6 m c :=
  (Function.update_self (β := fun b : DevRef τ sig => Buf (Elt F) ((c : Thread nD τ).1, b)) (Proc.devRef .tc main_v14) (outs m 6 main_v14 c) (V5 m c)).trans (outs_6 m c)
theorem V8_v34 (c : Dev nD) : V8 m (outs m) c main_v34 = o8 m c :=
  (Function.update_self (β := fun b : DevRef τ sig => Buf (Elt F) ((c : Thread nD τ).1, b)) (Proc.devRef .tc main_v34) (outs m 8 main_v34 c) (V7 m (outs m) c)).trans (outs_8 m c)
theorem V10_v54 (c : Dev nD) : V10 m (outs m) c main_v54 = o10 m c :=
  (Function.update_self (β := fun b : DevRef τ sig => Buf (Elt F) ((c : Thread nD τ).1, b)) (Proc.devRef .tc main_v54) (outs m 10 main_v54 c) (V9 m (outs m) c)).trans (outs_10 m c)

theorem hF0_0 (c : Dev nD) : (dat0 (E5 m) c).arrAt 0 cfg0.N = V6 m (outs m) c main_arg0 :=
  ((dat0 (E5 m) c).arrAt_in 0 rfl _).trans ((A_eq0 (E5 m) c 0).trans (V6_of m (outs m) c main_arg0 (by decide)).symm)
theorem hF0_1 (c : Dev nD) : (dat0 (E5 m) c).arrAt 1 cfg0.N = V6 m (outs m) c main_v13 :=
  ((dat0 (E5 m) c).arrAt_in 1 rfl _).trans ((A_eq0 (E5 m) c 1).trans (V6_of m (outs m) c main_v13 (by decide)).symm)
theorem hF0_2 (c : Dev nD) : (dat0 (E5 m) c).arrAt 2 cfg0.N = V6 m (outs m) c main_arg2 :=
  ((dat0 (E5 m) c).arrAt_in 2 rfl _).trans ((A_eq0 (E5 m) c 2).trans (V6_of m (outs m) c main_arg2 (by decide)).symm)
theorem hF0_3 (c : Dev nD) : (dat0 (E5 m) c).arrAt 3 cfg0.N = V6 m (outs m) c main_v14 :=
  (o6_eq m c).trans (V6_v14 m c).symm

theorem hF0 (c : Dev nD) (w : Fin cfg0.W) : (dat0 (E5 m) c).arrAt w cfg0.N = V6 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
theorem hrest0 (c : Dev nD) : ∀ b, b ∉ Finset.univ.image (Pipeline.arrRef spec0) → V6 m (outs m) c b = V5 m c b :=
  fun b hb => V6_of m (outs m) c b fun h => hb (Finset.mem_image.mpr ⟨3, Finset.mem_univ _, (List.mem_singleton.mp h).symm⟩)

theorem E7_eq (c : Dev nD) (b : Ref sig .tc) : E7 m c b = V7 m (outs m) c b := congrFun (V7_outs m c).symm (Proc.devRef .tc b)
theorem E9_eq (c : Dev nD) (b : Ref sig .tc) : E9 m c b = V9 m (outs m) c b := congrFun (V9_outs m c).symm (Proc.devRef .tc b)

theorem hF1_0 (c : Dev nD) : (dat1 (E7 m) c).arrAt 0 cfg1.N = V8 m (outs m) c main_v32 :=
  ((dat1 (E7 m) c).arrAt_in 0 rfl _).trans ((A_eq1 (E7 m) c 0).trans ((E7_eq m c main_v32).trans (V8_of m (outs m) c main_v32 (by decide)).symm))
theorem hF1_1 (c : Dev nD) : (dat1 (E7 m) c).arrAt 1 cfg1.N = V8 m (outs m) c main_v33 :=
  ((dat1 (E7 m) c).arrAt_in 1 rfl _).trans ((A_eq1 (E7 m) c 1).trans ((E7_eq m c main_v33).trans (V8_of m (outs m) c main_v33 (by decide)).symm))
theorem hF1_2 (c : Dev nD) : (dat1 (E7 m) c).arrAt 2 cfg1.N = V8 m (outs m) c main_arg4 :=
  ((dat1 (E7 m) c).arrAt_in 2 rfl _).trans ((A_eq1 (E7 m) c 2).trans ((E7_eq m c main_arg4).trans (V8_of m (outs m) c main_arg4 (by decide)).symm))
theorem hF1_3 (c : Dev nD) : (dat1 (E7 m) c).arrAt 3 cfg1.N = V8 m (outs m) c main_v34 :=
  (o8_eq m c).trans (V8_v34 m c).symm
theorem hF1 (c : Dev nD) (w : Fin cfg1.W) : (dat1 (E7 m) c).arrAt w cfg1.N = V8 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
theorem hrest1 (c : Dev nD) : ∀ b, b ∉ Finset.univ.image (Pipeline.arrRef spec1) → V8 m (outs m) c b = V7 m (outs m) c b :=
  fun b hb => V8_of m (outs m) c b fun h => hb (Finset.mem_image.mpr ⟨3, Finset.mem_univ _, (List.mem_singleton.mp h).symm⟩)

theorem hF2_0 (c : Dev nD) : (dat2 (E9 m) c).arrAt 0 cfg2.N = V10 m (outs m) c main_v53 :=
  ((dat2 (E9 m) c).arrAt_in 0 rfl _).trans ((A_eq2 (E9 m) c 0).trans ((E9_eq m c main_v53).trans (V10_of m (outs m) c main_v53 (by decide)).symm))
theorem hF2_1 (c : Dev nD) : (dat2 (E9 m) c).arrAt 1 cfg2.N = V10 m (outs m) c main_v53 :=
  ((dat2 (E9 m) c).arrAt_in 1 rfl _).trans ((A_eq2 (E9 m) c 1).trans ((E9_eq m c main_v53).trans (V10_of m (outs m) c main_v53 (by decide)).symm))
theorem hF2_2 (c : Dev nD) : (dat2 (E9 m) c).arrAt 2 cfg2.N = V10 m (outs m) c main_v54 :=
  (o10_eq m c).trans (V10_v54 m c).symm
theorem hF2 (c : Dev nD) (w : Fin cfg2.W) : (dat2 (E9 m) c).arrAt w cfg2.N = V10 m (outs m) c (Pipeline.arrRef spec2 w) :=
  match w with
  | ⟨0, _⟩ => hF2_0 m c
  | ⟨1, _⟩ => hF2_1 m c
  | ⟨2, _⟩ => hF2_2 m c
theorem hrest2 (c : Dev nD) : ∀ b, b ∉ Finset.univ.image (Pipeline.arrRef spec2) → V10 m (outs m) c b = V9 m (outs m) c b :=
  fun b hb => V10_of m (outs m) c b fun h => hb (Finset.mem_image.mpr ⟨2, Finset.mem_univ _, (List.mem_singleton.mp h).symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E7 m) c
  | ⟨2, _⟩ => fun c => dat2 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
abbrev EE : Fin 4 → Dev nD → sProp 𝕄 := fun _ c => R c
/-- The last thread state without the dues: every unscoped buffer at the last valuation, the generator register at some state. -/
abbrev Tₙ (c : Dev nD) : sProp 𝕄 := iprop(StableHlo.held (c : Thread nD τ) (Pipeline.ucRefs τ sig) (V10 m (outs m) c) ∗ ∃ r, prngReg c r)

/-! ## The regions as segments -/

set_option backward.isDefEq.respectTransparency.types false in
/-- Pallas_call 0 over the thread state: entered with every unscoped buffer at the valuation before it, left with every
    unscoped buffer at the valuation after it. Its arrays are split out of the unscoped buffers at entry and put back at
    their final contents at the exit; the generator register goes into the pipeline's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered with every unscoped buffer at the valuation before it, left with every
    unscoped buffer at the valuation after it. Its arrays are split out of the unscoped buffers at entry and put back at
    their final contents at the exit; the generator register goes into the pipeline's invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit : (StableHlo.held (c : Thread nD τ) (Pipeline.ucRefs τ sig) (V7 m (outs m) c) : sProp 𝕄)
        ⊢ iprop((pdats m 1 c).arrays ((pdats m 1 c).arrAt · 0) ∗ Pipeline.unscopedRest spec1 c (E7 m c)) := by
      have h := Pipeline.arrays_of_unscopedBufs (p := 1) (pcfgs (F := F)) adm (pdats m) launch1.win launch1.arr_whole c
        ((pdats m 1 c).share_full fun _ => rfl) (E7 m c) fun _ => rfl
      rw [Pipeline.unscopedBufs_held] at h
      rw [V7_outs m c]
      exact h
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered with every unscoped buffer at the valuation before it, left with every
    unscoped buffer at the valuation after it. Its arrays are split out of the unscoped buffers at entry and put back at
    their final contents at the exit; the generator register goes into the pipeline's invariant and comes back; nothing is
    owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (V9 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit : (StableHlo.held (c : Thread nD τ) (Pipeline.ucRefs τ sig) (V9 m (outs m) c) : sProp 𝕄)
        ⊢ iprop((pdats m 2 c).arrays ((pdats m 2 c).arrAt · 0) ∗ Pipeline.unscopedRest spec2 c (E9 m c)) := by
      have h := arrays2_of_unscopedBufs (F := F) (E9 m) c
      rw [Pipeline.unscopedBufs_held] at h
      rw [V9_outs m c]
      exact h
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (E9 m c))
        ⊢ (StableHlo.held (c : Thread nD τ) (Pipeline.ucRefs τ sig) (V10 m (outs m) c) : sProp 𝕄) := by
      have h := unscopedBufs_of_arrays2 (F := F) (E9 m) c (fun b => V10 m (outs m) c b) (hF2 m c) (hrest2 m c)
      rw [Pipeline.unscopedBufs_held] at h
      exact h
    iintro ⟨Ha, HO, HY, Hrest⟩
    imodintro
    isplitl [Ha Hrest HY]
    · isplitl [Ha Hrest]
      · iapply hjoin
        isplitl [Ha]
        · iexact Ha
        iexact Hrest
      iexact HY
    unfold Pipeline.Dat.owesAt Pipeline.owesWithin
    icases HO with ⟨%W, -, HO⟩; iexists W; iexact HO

/-! ## @main as segments, and the launch -/

/-- @main's ten segments in order. -/
abbrev mainSegs : List (Pipeline.Seg (pcfgs (F := F)) adm (pdats m) () defs₀ 𝒱₀ L lv) :=
  [ .host (seg0 m 𝒱₀ L lv EE), .host (seg1 m 𝒱₀ L lv EE), .host (seg2 m 𝒱₀ L lv EE), .host (seg3 m 𝒱₀ L lv EE), .host (seg4 m 𝒱₀ L lv EE),
    .region (reg0 m), .host (seg6 m (outs m) 𝒱₀ L lv EE), .region (reg1 m), .host (seg8 m (outs m) 𝒱₀ L lv EE), .region (reg2 m) ]

set_option backward.isDefEq.respectTransparency.types false in
/-- THE RUN. From any memory with zero counters, every weakly fair execution of @main terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) :=
  Pipeline.θ_run_regions_kit (pcfgs (F := F)) adm (pdats m) () cellOf_inj emb₁ defs₀ 𝒱₀ L lv m ρ main (mainSegs m)
    (fun c Q => by
      rewrite [main_chain c, Pipeline.Seg.run_eq_chain,
        show (mainSegs m).map Pipeline.Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun s h c => h c)

/-- The frame: every argument array ends as launched (no host stretch writes an argument, no region changes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c)⟩) (run_all m ρ)

end Cert.Kernel.Hand

end
-- ==== Proof.Ideal.Region0.lean ====
/-
  Region 0 of the program: the pallas_call of the scaled matrix product, one of its twelve grid points at a time.
  At a point the body reads three blocks — 1024 rows of the left operand, the 1024 matching entries of the
  scale column, the whole right operand — and stores, into the output block of 1024 rows, the product of the
  scaled rows with the right operand. Stated at a parameter `V` (what the core's buffers hold when the
  region is entered): the blocks, what the body leaves in the output block, the body's triple, and the
  pipeline's proof data with its body obligation. Generic in the float instance.
-/
import proofs.«127199_j2207613190405_2_alg».proof.Proof.Gen.KernelIdeal.Launch
import proofs.«127199_j2207613190405_2_alg».proof.Proof.Gen.KernelIdeal.Skeleton
import proofs.«127199_j2207613190405_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index had not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each is the whole of its staging buffer. -/
abbrev rL0 : Rect S1024x2000 := Rect.unit (s := S1024x2000) ![0, 0] S1024x2000.size inb_S1024x2000_S1024x2000_0_0
abbrev rS0 : Rect S1024x1 := Rect.unit (s := S1024x1) ![0, 0] S1024x1.size inb_S1024x1_S1024x1_0_0
abbrev rR0 : Rect S2000x64 := Rect.unit (s := S2000x64) ![0, 0] S2000x64.size inb_S2000x64_S2000x64_0_0
abbrev rO0 : Rect S1024x64 := Rect.unit (s := S1024x64) ![0, 0] S1024x64.size inb_S1024x64_S1024x64_0_0

/-- What the body leaves in the output window's buffer, from the three input blocks: its one store, of the product. -/
def out0_3 (x0 : Vec F S1024x2000 .f32) (x1 : Vec F S1024x1 .f32) (x2 : Vec F S2000x64 .f32) : Vec F S1024x64 .f32 :=
  View.canon [⟨rO0, k0_pay1 (View.ld x0 rL0) (View.ld x1 rS0) (View.ld x2 rR0)⟩]

/-- The one store covers the output buffer. -/
theorem cover0_3 (p0 : Vec F S1024x64 .f32) (y : S1024x64.Idx) :
    ∃ pc ∈ ([⟨rO0, p0⟩] : List (View.Piece (Elt F) S1024x64 .f32)), y ∈ pc.1.set :=
  View.cover_of_tiled [⟨rO0, p0⟩] S1024x64.size (by rfl) y

set_option maxHeartbeats 1000000 in
/-- The body on whole staging memrefs — the inputs' at contents `x0 x1 x2`, the output's at anything — runs to its
    continuation with the inputs' as they were and the output's at `out0_3` of them. -/
theorem sound_kernel0 (c : Dev nD) (E : Set ℕ) (i : grid0.Coords)
    (arg1 : Memref sig .tc .vmem S1024x2000 .f32) (harg1 : arg1.IsWhole) (arg2 : Memref sig .tc .vmem S1024x1 .f32) (harg2 : arg2.IsWhole)
    (arg3 : Memref sig .tc .vmem S2000x64 .f32) (harg3 : arg3.IsWhole) (arg4 : Memref sig .tc .vmem S1024x64 .f32) (harg4 : arg4.IsWhole)
    (x0 : Vec F S1024x2000 .f32) (x1 : Vec F S1024x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer still at its block and the output's at `out0_3` of the three input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Region1.lean ====
/-
  Region 1 of the program: the pallas_call of the scaled matrix product, one of its twelve grid points at a time.
  At a point the body reads three blocks — 1024 rows of the left operand, the 1024 matching entries of the
  scale column, the whole right operand — and stores, into the output block of 1024 rows, the product of the
  scaled rows with the right operand. Stated at a parameter `V` (what the core's buffers hold when the
  region is entered): the blocks, what the body leaves in the output block, the body's triple, and the
  pipeline's proof data with its body obligation. Generic in the float instance.
-/
import proofs.«127199_j2207613190405_2_alg».proof.Proof.Gen.KernelIdeal.Launch
import proofs.«127199_j2207613190405_2_alg».proof.Proof.Gen.KernelIdeal.Skeleton
import proofs.«127199_j2207613190405_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    kept it from the point before (its block index had not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is the whole of its staging buffer. -/
abbrev rL1 : Rect S1024x64 := Rect.unit (s := S1024x64) ![0, 0] S1024x64.size inb_S1024x64_S1024x64_0_0
abbrev rS1 : Rect S1024x1 := Rect.unit (s := S1024x1) ![0, 0] S1024x1.size inb_S1024x1_S1024x1_0_0
abbrev rR1 : Rect S64x64 := Rect.unit (s := S64x64) ![0, 0] S64x64.size inb_S64x64_S64x64_0_0
abbrev rO1 : Rect S1024x64 := Rect.unit (s := S1024x64) ![0, 0] S1024x64.size inb_S1024x64_S1024x64_0_0

/-- What the body leaves in the output window's buffer, from the three input blocks: its one store, of the product. -/
def out1_3 (x0 : Vec F S1024x64 .f32) (x1 : Vec F S1024x1 .f32) (x2 : Vec F S64x64 .f32) : Vec F S1024x64 .f32 :=
  View.canon [⟨rO1, k1_pay1 (View.ld x0 rL1) (View.ld x1 rS1) (View.ld x2 rR1)⟩]

/-- The one store covers the output buffer. -/
theorem cover1_3 (p0 : Vec F S1024x64 .f32) (y : S1024x64.Idx) :
    ∃ pc ∈ ([⟨rO1, p0⟩] : List (View.Piece (Elt F) S1024x64 .f32)), y ∈ pc.1.set :=
  View.cover_of_tiled [⟨rO1, p0⟩] S1024x64.size (by rfl) y

set_option maxHeartbeats 1000000 in
/-- The body on whole staging memrefs — the inputs' at contents `x0 x1 x2`, the output's at anything — runs to its
    continuation with the inputs' as they were and the output's at `out1_3` of them. -/
theorem sound_kernel1 (c : Dev nD) (E : Set ℕ) (i : grid1.Coords)
    (arg1 : Memref sig .tc .vmem S1024x64 .f32) (harg1 : arg1.IsWhole) (arg2 : Memref sig .tc .vmem S1024x1 .f32) (harg2 : arg2.IsWhole)
    (arg3 : Memref sig .tc .vmem S64x64 .f32) (harg3 : arg3.IsWhole) (arg4 : Memref sig .tc .vmem S1024x64 .f32) (harg4 : arg4.IsWhole)
    (x0 : Vec F S1024x64 .f32) (x1 : Vec F S1024x1 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer still at its block and the output's at `out1_3` of the three input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Region2.lean ====
/-
  Region 2 of the program: the pallas_call of the inner-product decode, one of its 6 × 6 grid points at a time.
  At point (a, b) the body reads two blocks of 2048 rows of the SAME array — block a through the first window,
  block b through the second — and stores, into the 2048 × 2048 output block (a, b), the products of the rows of
  the first with the rows of the second. Stated at a parameter `V` (what the core's buffers hold when the region
  is entered): the blocks, what the body leaves in the output block, the body's triple, and the pipeline's proof
  data with its body obligation. The two input windows lie on one array, so the core holds that array through
  each window at one half of the full share. Generic in the float instance.
-/
import proofs.«127199_j2207613190405_2_alg».proof.Proof.Gen.KernelIdeal.Launch
import proofs.«127199_j2207613190405_2_alg».proof.Proof.Gen.KernelIdeal.Skeleton
import proofs.«127199_j2207613190405_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the pipeline fetched it there or
    kept it from the point before (its block index had not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each is the whole of its staging buffer. -/
abbrev rI2 : Rect S2048x64 := Rect.unit (s := S2048x64) ![0, 0] S2048x64.size inb_S2048x64_S2048x64_0_0
abbrev rO2 : Rect S2048x2048 := Rect.unit (s := S2048x2048) ![0, 0] S2048x2048.size inb_S2048x2048_S2048x2048_0_0

/-- What the body leaves in the output window's buffer, from the two input blocks: its one store, of the product. -/
def out2_2 (x0 : Vec F S2048x64 .bf16) (x1 : Vec F S2048x64 .bf16) : Vec F S2048x2048 .f32 :=
  View.canon [⟨rO2, k2_pay1 (View.ld x0 rI2) (View.ld x1 rI2)⟩]

/-- The one store covers the output buffer. -/
theorem cover2_2 (p0 : Vec F S2048x2048 .f32) (y : S2048x2048.Idx) :
    ∃ pc ∈ ([⟨rO2, p0⟩] : List (View.Piece (Elt F) S2048x2048 .f32)), y ∈ pc.1.set :=
  View.cover_of_tiled [⟨rO2, p0⟩] S2048x2048.size (by rfl) y

set_option maxHeartbeats 1000000 in
/-- The body on whole staging memrefs — the inputs' at contents `x0 x1`, the output's at anything — runs to its
    continuation with the inputs' as they were and the output's at `out2_2` of them. -/
theorem sound_kernel2 (c : Dev nD) (E : Set ℕ) (i : grid2.Coords)
    (arg2 : Memref sig .tc .vmem S2048x64 .bf16) (harg2 : arg2.IsWhole) (arg3 : Memref sig .tc .vmem S2048x64 .bf16) (harg3 : arg3.IsWhole)
    (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each input's
    buffer still at its block and the output's at `out2_2` of the two input blocks; nothing owed; the shared input
    array held at the left half of the full share through window 0 and at the right half through window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.Region2Arrays.lean ====
/-
  Region 2's arrays against the core's unscoped buffers. The region's two input windows read ONE array and its
  output window another, so behind the three windows stand two buffers. At the region's entry the core holds each
  unscoped buffer whole at the full share; the pipeline wants the shared input array once per window, at the left
  half of the full share through window 0 and at the right half through window 1, and the output array at the full
  share. The full share is the sum of its two halves, so the shared array splits at entry and joins back at exit,
  where both windows still hold it at the same contents (an input array is never written).
  Generic in the float instance.
-/
import proofs.«127199_j2207613190405_2_alg».proof.Proof.Ideal.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct references behind the three windows: the shared input array and the output array. -/
theorem arrRefs2 : Finset.univ.image (Pipeline.arrRef spec2) = {main_v53, main_v54} := by decide

/-- The shares the core holds the windows' arrays at: the two halves of the full share for the two input windows,
    the full share for the output window. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- ENTRY: the core's unscoped buffers at V are region 2's arrays at the proof data's entry contents (the shared array
    split into its two half shares) and the unscoped rest. -/
theorem arrays2_of_unscopedBufs (c : Dev nD) :
    (unscopedBufs c (V c) : sProp 𝕄) ⊢ iprop((dat2 V c).arrays ((dat2 V c).arrAt · 0) ∗ Pipeline.unscopedRest spec2 c (V c)) := by
  rw [Pipeline.PerCore.unscopedBufs_split₀ (fun _ (_ : Unit) => cfg2) () c winFacts₀2.arr_unscoped (V c)]
  refine sep_mono ?_ .rfl
  unfold Pipeline.arrBufs Dat.arrays
  rw [arrRefs2, bigSep_insert (by decide), bigSep_singleton, bigSep_W2]
  rw [(arr_whole2 0).set_eq_univ, (arr_whole2 2).set_eq_univ, share2_0, share2_1, share2_2]
  show iprop(((c : Thread nD τ).loc main_v53 ↦{fullShare} V c main_v53) ∗ ((c : Thread nD τ).loc main_v54 ↦{fullShare} V c main_v54))
    ⊢ iprop(((c : Thread nD τ).loc main_v53 ↦{fullShare.left} V c main_v53) ∗ ((c : Thread nD τ).loc main_v53 ↦{fullShare.right} V c main_v53)
        ∗ ((c : Thread nD τ).loc main_v54 ↦{fullShare} V c main_v54))
  iintro ⟨H53, H54⟩
  ihave H := (pointsTo_share (PosShare.mem_left_op_right fullShare)).1 $$ H53
  icases H with ⟨Hl, Hr⟩
  isplitl [Hl]; · iexact Hl
  isplitl [Hr]; · iexact Hr
  iexact H54

/-- EXIT: the arrays at their final contents and the unscoped rest at V are the core's unscoped buffers at any valuation
    V' that has the arrays at those contents and agrees with V off them (the two half shares of the shared input array
    joined back: both windows hold it at V' of the one reference, so the halves are of one contents). -/
theorem unscopedBufs_of_arrays2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c)) ⊢ (unscopedBufs c V' : sProp 𝕄) := by
  rw [Pipeline.PerCore.unscopedBufs_split₀ (fun _ (_ : Unit) => cfg2) () c winFacts₀2.arr_unscoped V']
  refine sep_mono ?_ (Entails.of_eq ?_)
  · unfold Pipeline.arrBufs Dat.arrays
    rw [arrRefs2, bigSep_insert (by decide), bigSep_singleton, bigSep_W2]
    rw [(arr_whole2 0).set_eq_univ, (arr_whole2 2).set_eq_univ, share2_0, share2_1, share2_2]
    dsimp only
    rw [hF 0, hF 1, hF 2]
    show iprop(((c : Thread nD τ).loc main_v53 ↦{fullShare.left} V' main_v53) ∗ ((c : Thread nD τ).loc main_v53 ↦{fullShare.right} V' main_v53)
        ∗ ((c : Thread nD τ).loc main_v54 ↦{fullShare} V' main_v54))
      ⊢ iprop(((c : Thread nD τ).loc main_v53 ↦{fullShare} V' main_v53) ∗ ((c : Thread nD τ).loc main_v54 ↦{fullShare} V' main_v54))
    iintro ⟨Hl, Hr, H54⟩
    isplitl [Hl Hr]
    · iapply (pointsTo_share (PosShare.mem_left_op_right fullShare)).2
      isplitl [Hl]; · iexact Hl
      iexact Hr
    iexact H54
  · unfold Pipeline.unscopedRest
    exact bigSep_congr fun b hb => by rw [hrest b (Finset.mem_sdiff.mp hb).2]

end Cert.KernelIdeal.Hand

end
-- ==== Proof.Ideal.Run.lean ====
/-
  The whole run of the program: @main as ten segments — five stretches of host operations, the first scaled
  matrix product, a stretch, the second scaled matrix product, a stretch, the inner-product decode — from the
  launch to the return, with what every unscoped buffer holds at every boundary. Between two segments the core holds
  each unscoped buffer whole at a named valuation: the launch contents, then what each host stretch computes from
  them, then, after a pallas_call, the same valuation with the call's output array replaced by what its pipeline
  leaves there (the fold of its write-backs). The final theorem says every weakly fair execution terminates and the
  final memory holds, at every unscoped buffer, the last valuation. Generic in the float instance.
-/
import proofs.«127199_j2207613190405_2_alg».proof.Proof.Ideal.Region0
import proofs.«127199_j2207613190405_2_alg».proof.Proof.Ideal.Region1
import proofs.«127199_j2207613190405_2_alg».proof.Proof.Ideal.Region2
import proofs.«127199_j2207613190405_2_alg».proof.Proof.Ideal.Region2Arrays
import proofs.«127199_j2207613190405_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three pallas_calls leave in their output arrays -/

/-- The unknowns of the boundary valuations, from what each pallas_call's output array holds after it (`o6` after the first,
    `o8` after the second, `o10` after the third); any other entry is never read. -/
def mkOuts (o6 : (c : Dev nD) → Buf (Elt F) ((c : Thread nD τ).loc main_v14)) (o8 : (c : Dev nD) → Buf (Elt F) ((c : Thread nD τ).loc main_v34))
    (o10 : (c : Dev nD) → Buf (Elt F) ((c : Thread nD τ).loc main_v54)) : Outs (F := F) := fun J r c =>
  if h6 : J = 6 ∧ r = main_v14 then h6.2 ▸ o6 c
  else if h8 : J = 8 ∧ r = main_v34 then h8.2 ▸ o8 c
  else if h10 : J = 10 ∧ r = main_v54 then h10.2 ▸ o10 c
  else m ((c : Thread nD τ).loc r)

/-- The core's buffers read at the TensorCore's references when the first pallas_call is entered. -/
abbrev E5 : (c : Dev nD) → (b : Ref sig .tc) → Buf (Elt F) ((c : Thread nD τ).loc b) := fun c b => V5 m c b
/-- The first pallas_call's output array after it: the fold of its twelve write-backs. -/
def o6 (c : Dev nD) : Buf (Elt F) ((c : Thread nD τ).loc main_v14) := (dat0 (E5 m) c).arrAt 3 cfg0.N
abbrev outsA : Outs (F := F) := mkOuts m (o6 m) (fun c => m ((c : Thread nD τ).loc main_v34)) (fun c => m ((c : Thread nD τ).loc main_v54))
/-- The core's buffers when the second pallas_call is entered. -/
abbrev E7 : (c : Dev nD) → (b : Ref sig .tc) → Buf (Elt F) ((c : Thread nD τ).loc b) := fun c b => V7 m (outsA m) c b
def o8 (c : Dev nD) : Buf (Elt F) ((c : Thread nD τ).loc main_v34) := (dat1 (E7 m) c).arrAt 3 cfg1.N
abbrev outsB : Outs (F := F) := mkOuts m (o6 m) (o8 m) (fun c => m ((c : Thread nD τ).loc main_v54))
/-- The core's buffers when the third pallas_call is entered. -/
abbrev E9 : (c : Dev nD) → (b : Ref sig .tc) → Buf (Elt F) ((c : Thread nD τ).loc b) := fun c b => V9 m (outsB m) c b
def o10 (c : Dev nD) : Buf (Elt F) ((c : Thread nD τ).loc main_v54) := (dat2 (E9 m) c).arrAt 2 cfg2.N
/-- The unknowns, all three known. -/
abbrev outs : Outs (F := F) := mkOuts m (o6 m) (o8 m) (o10 m)

theorem outs_6 (c : Dev nD) : outs m 6 main_v14 c = o6 m c := rfl
theorem outs_8 (c : Dev nD) : outs m 8 main_v34 c = o8 m c := rfl
theorem outs_10 (c : Dev nD) : outs m 10 main_v54 c = o10 m c := rfl
theorem V7_outs (c : Dev nD) : V7 m (outs m) c = V7 m (outsA m) c := rfl
theorem V9_outs (c : Dev nD) : V9 m (outs m) c = V9 m (outsB m) c := rfl

/-! ## The boundary valuations at the regions' arrays -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem o6_eq (c : Dev nD) : (dat0 (E5 m) c).arrAt 3 cfg0.N = o6 m c := by unfold o6; rfl
theorem o8_eq (c : Dev nD) : (dat1 (E7 m) c).arrAt 3 cfg1.N = o8 m c := by unfold o8; rfl
theorem o10_eq (c : Dev nD) : (dat2 (E9 m) c).arrAt 2 cfg2.N = o10 m c := by unfold o10; rfl

theorem V6_v14 (c : Dev nD) : V6 m (outs m) c main_v14 = o6 m c :=
  (Function.update_self (β := fun b : DevRef τ sig => Buf (Elt F) ((c : Thread nD τ).1, b)) (Proc.devRef .tc main_v14) (outs m 6 main_v14 c) (V5 m c)).trans (outs_6 m c)
theorem V8_v34 (c : Dev nD) : V8 m (outs m) c main_v34 = o8 m c :=
  (Function.update_self (β := fun b : DevRef τ sig => Buf (Elt F) ((c : Thread nD τ).1, b)) (Proc.devRef .tc main_v34) (outs m 8 main_v34 c) (V7 m (outs m) c)).trans (outs_8 m c)
theorem V10_v54 (c : Dev nD) : V10 m (outs m) c main_v54 = o10 m c :=
  (Function.update_self (β := fun b : DevRef τ sig => Buf (Elt F) ((c : Thread nD τ).1, b)) (Proc.devRef .tc main_v54) (outs m 10 main_v54 c) (V9 m (outs m) c)).trans (outs_10 m c)

theorem hF0_0 (c : Dev nD) : (dat0 (E5 m) c).arrAt 0 cfg0.N = V6 m (outs m) c main_arg0 :=
  ((dat0 (E5 m) c).arrAt_in 0 rfl _).trans ((A_eq0 (E5 m) c 0).trans (V6_of m (outs m) c main_arg0 (by decide)).symm)
theorem hF0_1 (c : Dev nD) : (dat0 (E5 m) c).arrAt 1 cfg0.N = V6 m (outs m) c main_v13 :=
  ((dat0 (E5 m) c).arrAt_in 1 rfl _).trans ((A_eq0 (E5 m) c 1).trans (V6_of m (outs m) c main_v13 (by decide)).symm)
theorem hF0_2 (c : Dev nD) : (dat0 (E5 m) c).arrAt 2 cfg0.N = V6 m (outs m) c main_arg2 :=
  ((dat0 (E5 m) c).arrAt_in 2 rfl _).trans ((A_eq0 (E5 m) c 2).trans (V6_of m (outs m) c main_arg2 (by decide)).symm)
theorem hF0_3 (c : Dev nD) : (dat0 (E5 m) c).arrAt 3 cfg0.N = V6 m (outs m) c main_v14 :=
  (o6_eq m c).trans (V6_v14 m c).symm

theorem hF0 (c : Dev nD) (w : Fin cfg0.W) : (dat0 (E5 m) c).arrAt w cfg0.N = V6 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
theorem hrest0 (c : Dev nD) : ∀ b, b ∉ Finset.univ.image (Pipeline.arrRef spec0) → V6 m (outs m) c b = V5 m c b :=
  fun b hb => V6_of m (outs m) c b fun h => hb (Finset.mem_image.mpr ⟨3, Finset.mem_univ _, (List.mem_singleton.mp h).symm⟩)

theorem E7_eq (c : Dev nD) (b : Ref sig .tc) : E7 m c b = V7 m (outs m) c b := congrFun (V7_outs m c).symm (Proc.devRef .tc b)
theorem E9_eq (c : Dev nD) (b : Ref sig .tc) : E9 m c b = V9 m (outs m) c b := congrFun (V9_outs m c).symm (Proc.devRef .tc b)

theorem hF1_0 (c : Dev nD) : (dat1 (E7 m) c).arrAt 0 cfg1.N = V8 m (outs m) c main_v32 :=
  ((dat1 (E7 m) c).arrAt_in 0 rfl _).trans ((A_eq1 (E7 m) c 0).trans ((E7_eq m c main_v32).trans (V8_of m (outs m) c main_v32 (by decide)).symm))
theorem hF1_1 (c : Dev nD) : (dat1 (E7 m) c).arrAt 1 cfg1.N = V8 m (outs m) c main_v33 :=
  ((dat1 (E7 m) c).arrAt_in 1 rfl _).trans ((A_eq1 (E7 m) c 1).trans ((E7_eq m c main_v33).trans (V8_of m (outs m) c main_v33 (by decide)).symm))
theorem hF1_2 (c : Dev nD) : (dat1 (E7 m) c).arrAt 2 cfg1.N = V8 m (outs m) c main_arg4 :=
  ((dat1 (E7 m) c).arrAt_in 2 rfl _).trans ((A_eq1 (E7 m) c 2).trans ((E7_eq m c main_arg4).trans (V8_of m (outs m) c main_arg4 (by decide)).symm))
theorem hF1_3 (c : Dev nD) : (dat1 (E7 m) c).arrAt 3 cfg1.N = V8 m (outs m) c main_v34 :=
  (o8_eq m c).trans (V8_v34 m c).symm
theorem hF1 (c : Dev nD) (w : Fin cfg1.W) : (dat1 (E7 m) c).arrAt w cfg1.N = V8 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
theorem hrest1 (c : Dev nD) : ∀ b, b ∉ Finset.univ.image (Pipeline.arrRef spec1) → V8 m (outs m) c b = V7 m (outs m) c b :=
  fun b hb => V8_of m (outs m) c b fun h => hb (Finset.mem_image.mpr ⟨3, Finset.mem_univ _, (List.mem_singleton.mp h).symm⟩)

theorem hF2_0 (c : Dev nD) : (dat2 (E9 m) c).arrAt 0 cfg2.N = V10 m (outs m) c main_v53 :=
  ((dat2 (E9 m) c).arrAt_in 0 rfl _).trans ((A_eq2 (E9 m) c 0).trans ((E9_eq m c main_v53).trans (V10_of m (outs m) c main_v53 (by decide)).symm))
theorem hF2_1 (c : Dev nD) : (dat2 (E9 m) c).arrAt 1 cfg2.N = V10 m (outs m) c main_v53 :=
  ((dat2 (E9 m) c).arrAt_in 1 rfl _).trans ((A_eq2 (E9 m) c 1).trans ((E9_eq m c main_v53).trans (V10_of m (outs m) c main_v53 (by decide)).symm))
theorem hF2_2 (c : Dev nD) : (dat2 (E9 m) c).arrAt 2 cfg2.N = V10 m (outs m) c main_v54 :=
  (o10_eq m c).trans (V10_v54 m c).symm
theorem hF2 (c : Dev nD) (w : Fin cfg2.W) : (dat2 (E9 m) c).arrAt w cfg2.N = V10 m (outs m) c (Pipeline.arrRef spec2 w) :=
  match w with
  | ⟨0, _⟩ => hF2_0 m c
  | ⟨1, _⟩ => hF2_1 m c
  | ⟨2, _⟩ => hF2_2 m c
theorem hrest2 (c : Dev nD) : ∀ b, b ∉ Finset.univ.image (Pipeline.arrRef spec2) → V10 m (outs m) c b = V9 m (outs m) c b :=
  fun b hb => V10_of m (outs m) c b fun h => hb (Finset.mem_image.mpr ⟨2, Finset.mem_univ _, (List.mem_singleton.mp h).symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E7 m) c
  | ⟨2, _⟩ => fun c => dat2 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
abbrev EE : Fin 4 → Dev nD → sProp 𝕄 := fun _ c => R c
/-- The last thread state without the dues: every unscoped buffer at the last valuation, the generator register at some state. -/
abbrev Tₙ (c : Dev nD) : sProp 𝕄 := iprop(StableHlo.held (c : Thread nD τ) (Pipeline.ucRefs τ sig) (V10 m (outs m) c) ∗ ∃ r, prngReg c r)

/-! ## The regions as segments -/

set_option backward.isDefEq.respectTransparency.types false in
/-- Pallas_call 0 over the thread state: entered with every unscoped buffer at the valuation before it, left with every
    unscoped buffer at the valuation after it. Its arrays are split out of the unscoped buffers at entry and put back at
    their final contents at the exit; the generator register goes into the pipeline's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered with every unscoped buffer at the valuation before it, left with every
    unscoped buffer at the valuation after it. Its arrays are split out of the unscoped buffers at entry and put back at
    their final contents at the exit; the generator register goes into the pipeline's invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit : (StableHlo.held (c : Thread nD τ) (Pipeline.ucRefs τ sig) (V7 m (outs m) c) : sProp 𝕄)
        ⊢ iprop((pdats m 1 c).arrays ((pdats m 1 c).arrAt · 0) ∗ Pipeline.unscopedRest spec1 c (E7 m c)) := by
      have h := Pipeline.arrays_of_unscopedBufs (p := 1) (pcfgs (F := F)) adm (pdats m) launch1.win launch1.arr_whole c
        ((pdats m 1 c).share_full fun _ => rfl) (E7 m c) fun _ => rfl
      rw [Pipeline.unscopedBufs_held] at h
      rw [V7_outs m c]
      exact h
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered with every unscoped buffer at the valuation before it, left with every
    unscoped buffer at the valuation after it. Its arrays are split out of the unscoped buffers at entry and put back at
    their final contents at the exit; the generator register goes into the pipeline's invariant and comes back; nothing is
    owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (V9 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit : (StableHlo.held (c : Thread nD τ) (Pipeline.ucRefs τ sig) (V9 m (outs m) c) : sProp 𝕄)
        ⊢ iprop((pdats m 2 c).arrays ((pdats m 2 c).arrAt · 0) ∗ Pipeline.unscopedRest spec2 c (E9 m c)) := by
      have h := arrays2_of_unscopedBufs (F := F) (E9 m) c
      rw [Pipeline.unscopedBufs_held] at h
      rw [V9_outs m c]
      exact h
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (E9 m c))
        ⊢ (StableHlo.held (c : Thread nD τ) (Pipeline.ucRefs τ sig) (V10 m (outs m) c) : sProp 𝕄) := by
      have h := unscopedBufs_of_arrays2 (F := F) (E9 m) c (fun b => V10 m (outs m) c b) (hF2 m c) (hrest2 m c)
      rw [Pipeline.unscopedBufs_held] at h
      exact h
    iintro ⟨Ha, HO, HY, Hrest⟩
    imodintro
    isplitl [Ha Hrest HY]
    · isplitl [Ha Hrest]
      · iapply hjoin
        isplitl [Ha]
        · iexact Ha
        iexact Hrest
      iexact HY
    unfold Pipeline.Dat.owesAt Pipeline.owesWithin
    icases HO with ⟨%W, -, HO⟩; iexists W; iexact HO

/-! ## @main as segments, and the launch -/

/-- @main's ten segments in order. -/
abbrev mainSegs : List (Pipeline.Seg (pcfgs (F := F)) adm (pdats m) () defs₀ 𝒱₀ L lv) :=
  [ .host (seg0 m 𝒱₀ L lv EE), .host (seg1 m 𝒱₀ L lv EE), .host (seg2 m 𝒱₀ L lv EE), .host (seg3 m 𝒱₀ L lv EE), .host (seg4 m 𝒱₀ L lv EE),
    .region (reg0 m), .host (seg6 m (outs m) 𝒱₀ L lv EE), .region (reg1 m), .host (seg8 m (outs m) 𝒱₀ L lv EE), .region (reg2 m) ]

set_option backward.isDefEq.respectTransparency.types false in
/-- THE RUN. From any memory with zero counters, every weakly fair execution of @main terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) :=
  Pipeline.θ_run_regions_kit (pcfgs (F := F)) adm (pdats m) () cellOf_inj emb₁ defs₀ 𝒱₀ L lv m ρ main (mainSegs m)
    (fun c Q => by
      rewrite [main_chain c, Pipeline.Seg.run_eq_chain,
        show (mainSegs m).map Pipeline.Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun s h c => h c)

/-- The frame: every argument array ends as launched (no host stretch writes an argument, no region changes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c)⟩) (run_all m ρ)

end Cert.KernelIdeal.Hand

end
-- ==== Proof.Spec.lean ====
/-
  The three matrix products of the program, each as ONE function of whole arrays on the extended reals.
  `scaledProduct x s w` at (r, n) is the sum over k of (x(r,k) · s(r,0)) · w(k,n): the rows of `x` scaled by the
  column `s`, then multiplied with `w`. `gram y` at (r, q) is the sum over k of y(r,k) · y(q,k): the product of a
  matrix with its own transpose.
-/
import Idealize.ShloMosaic.PureOps.Ideal
import Idealize.ShloMosaic.Lib.ValueIdx

noncomputable section

namespace Cert.Spec

open Idealize.ShloMosaic Idealize.ShloMosaic.ValueIdx

/-- Rows scaled by a column, then the matrix product: (r, n) ↦ Σ_k (x(r,k) · s(r,0)) · w(k,n). -/
def scaledProduct {R K N : Nat} (x : (⟨2, ![R, K]⟩ : Shape).Idx → EReal) (s : (⟨2, ![R, 1]⟩ : Shape).Idx → EReal)
    (w : (⟨2, ![K, N]⟩ : Shape).Idx → EReal) : (⟨2, ![R, N]⟩ : Shape).Idx → EReal :=
  fun i => ∑ k : Fin K, (x (ix2 (⟨(i 0).val, (i 0).isLt⟩ : Fin R) k) * s (ix2 (⟨(i 0).val, (i 0).isLt⟩ : Fin R) (0 : Fin 1)))
    * w (ix2 k (⟨(i 1).val, (i 1).isLt⟩ : Fin N))

theorem scaledProduct_apply {R K N : Nat} (x : (⟨2, ![R, K]⟩ : Shape).Idx → EReal) (s : (⟨2, ![R, 1]⟩ : Shape).Idx → EReal)
    (w : (⟨2, ![K, N]⟩ : Shape).Idx → EReal) (r : Fin R) (n : Fin N) :
    scaledProduct x s w (ix2 r n) = ∑ k : Fin K, (x (ix2 r k) * s (ix2 r (0 : Fin 1))) * w (ix2 k n) := rfl

/-- A matrix times its own transpose: (r, q) ↦ Σ_k y(r,k) · y(q,k). -/
def gram {R K : Nat} (y : (⟨2, ![R, K]⟩ : Shape).Idx → EReal) : (⟨2, ![R, R]⟩ : Shape).Idx → EReal :=
  fun i => ∑ k : Fin K, y (ix2 (⟨(i 0).val, (i 0).isLt⟩ : Fin R) k) * y (ix2 (⟨(i 1).val, (i 1).isLt⟩ : Fin R) k)

theorem gram_apply {R K : Nat} (y : (⟨2, ![R, K]⟩ : Shape).Idx → EReal) (r q : Fin R) :
    gram y (ix2 r q) = ∑ k : Fin K, y (ix2 r k) * y (ix2 q k) := rfl

end Cert.Spec

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.Ideal.Value0.lean ====
/-
  The array the first scaled matrix product leaves, on the extended reals.

  At a grid point the body stores the product of 1024 scaled rows with the whole right operand. Read at a row p and a
  column n of the block, that product is the sum over k of (x(p,k) · s(p,0)) · w(k,n) (rounding to the narrower format
  is the identity on the extended reals). The block at point t sits at rows 1024·t … 1024·t + 1023 of the output, and
  the left operand's and the scale column's blocks sit at the same rows of their arrays, so what point t writes back
  is the block of `Spec.scaledProduct` of the three whole arrays; the twelve blocks tile the 12288 rows, so the
  output array ends as that function.
-/
import proofs.«127199_j2207613190405_2_alg».proof.Proof.Ideal.Region0
import proofs.«127199_j2207613190405_2_alg».proof.Proof.Spec
import proofs.«127199_j2207613190405_2_alg».proof.Proof.LibColumnOps
import proofs.«127199_j2207613190405_2_alg».proof.Proof.LibTileRead
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-- The product's dimension numbers: the left operand's second axis against the right operand's first. -/
theorem plainDot0 : Cert.Lib.TileRead.PlainDot (M := 1024) (K := 2000) (N := 64) dot_S1024x2000_S2000x64_S1024x64_1_0_0_1_n_n where
  hr := rfl
  hs := rfl
  l0 := fun j q => by
    unfold DotDims.lhsIdx
    rw [dif_neg (show ¬(0 : Fin S1024x2000.rank) ∈ dot_S1024x2000_S2000x64_S1024x64_1_0_0_1_n_n.lhsBatch by decide),
      dif_pos (show (0 : Fin S1024x2000.rank) ∈ dot_S1024x2000_S2000x64_S1024x64_1_0_0_1_n_n.lhsNonContracting by decide)]
    rfl
  l1 := fun j q => dot_S1024x2000_S2000x64_S1024x64_1_0_0_1_n_n.lhsIdx_val_of_single rfl j q
  r0 := fun j q => dot_S1024x2000_S2000x64_S1024x64_1_0_0_1_n_n.rhsIdx_val_of_single rfl j q
  r1 := fun j q => by
    unfold DotDims.rhsIdx
    rw [dif_neg (show ¬(1 : Fin S2000x64.rank) ∈ dot_S1024x2000_S2000x64_S1024x64_1_0_0_1_n_n.rhsBatch by decide),
      dif_pos (show (1 : Fin S2000x64.rank) ∈ dot_S1024x2000_S2000x64_S1024x64_1_0_0_1_n_n.rhsNonContracting by decide)]
    rfl

/-- The body's stored value at row `p`, column `n` of the block: the scaled rows times the right operand. -/
theorem pay0_apply (x0 : Vec Ideal S1024x2000 .f32) (x1 : Vec Ideal S1024x1 .f32) (x2 : Vec Ideal S2000x64 .f32)
    (p : Fin 1024) (n : Fin 64) :
    k0_pay1 x0 x1 x2 (ix2 p n) = ∑ k : Fin 2000, (x0 (ix2 p k) * x1 (ix2 p (0 : Fin 1))) * x2 (ix2 k n) := by
  unfold k0_pay1
  refine (Cert.Lib.TileRead.matmul_zero_plain_apply dot_S1024x2000_S2000x64_S1024x64_1_0_0_1_n_n plainDot0 none _ _ p n).trans ?_
  refine Finset.sum_congr rfl fun k _ => ?_
  rw [truncf_apply, truncf_apply, mulf_apply, Idealize.ShloMosaic.ColumnOps.broadcastTo_col_apply, shapeCast_self]

/-- The block identity over variables: blocks `x0 x1 x2` that are rows `1024·i …` of `A0`, the same rows of the
    column `A1`, and the whole of `A2`, give — at an index `j` of the block that sits at `J` in the output — the
    scaled product of the whole arrays at `J`. -/
theorem block0_eq (A0 : S12288x2000.Idx → EReal) (A1 : S12288x1.Idx → EReal) (A2 : S2000x64.Idx → EReal)
    (x0 : Vec Ideal S1024x2000 .f32) (x1 : Vec Ideal S1024x1 .f32) (x2 : Vec Ideal S2000x64 .f32)
    (i : Nat) (hi : i ≤ 11)
    (h0 : ∀ (p : Fin 1024) (k : Fin 2000), x0 (ix2 p k) = A0 (ix2 (⟨i * 1024 + p.val, by have := p.isLt; omega⟩ : Fin 12288) k))
    (h1 : ∀ (p : Fin 1024), x1 (ix2 p (0 : Fin 1)) = A1 (ix2 (⟨i * 1024 + p.val, by have := p.isLt; omega⟩ : Fin 12288) (0 : Fin 1)))
    (h2 : ∀ (k : Fin 2000) (n : Fin 64), x2 (ix2 k n) = A2 (ix2 k n))
    (j : S1024x64.Idx) (J : S12288x64.Idx) (hJ0 : (J 0).val = i * 1024 + (j 0).val) (hJ1 : (J 1).val = (j 1).val) :
    k0_pay1 x0 x1 x2 j = Cert.Spec.scaledProduct A0 A1 A2 J := by
  obtain ⟨p, n, rfl⟩ : ∃ (p : Fin 1024) (n : Fin 64), j = ix2 p n := ⟨j 0, j 1, eq_ix2 j⟩
  rw [pay0_apply]
  have e0 : (⟨(J 0).val, (J 0).isLt⟩ : Fin 12288) = ⟨i * 1024 + p.val, by have := p.isLt; omega⟩ := Fin.ext hJ0
  have e1 : (⟨(J 1).val, (J 1).isLt⟩ : Fin 64) = n := Fin.ext hJ1
  show _ = ∑ k : Fin 2000, (A0 (ix2 (⟨(J 0).val, (J 0).isLt⟩ : Fin 12288) k) * A1 (ix2 (⟨(J 0).val, (J 0).isLt⟩ : Fin 12288) (0 : Fin 1)))
    * A2 (ix2 k (⟨(J 1).val, (J 1).isLt⟩ : Fin 64))
  rw [e0, e1]
  refine Finset.sum_congr rfl fun k _ => ?_
  rw [h0, h1, h2]

theorem hz0 : (![0, 0] : Fin 2 → Nat) = fun _ => 0 := funext fun a => by fin_cases a <;> rfl

/-- The printed index maps over the twelve points: the left operand's and the scale column's blocks move with the
    output's, the right operand's stays, and the output's block index is the point's number. -/
theorem idx_facts0 : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

variable (V : (c : Dev nD) → (b : Ref sig .tc) → Buf (Elt Ideal) ((c : Thread nD τ).loc b))

/-- The whole output array of the region, as the function of the three whole input arrays. -/
abbrev G0 (c : Dev nD) : S12288x64.Idx → EReal :=
  Cert.Spec.scaledProduct (V c main_arg0 : S12288x2000.Idx → EReal) (V c main_v13 : S12288x1.Idx → EReal) (V c main_arg2 : S2000x64.Idx → EReal)

theorem tlt0 (t : Fin cfg0.N) : t.val ≤ 11 := by
  have h := t.isLt
  have hN : cfg0.N = 12 := N_0
  omega

/-- What point `t` writes back is block `t` of the scaled product of the whole arrays. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S1024x2000) hz0, View.ld_unit_zero (S := S1024x1) hz0, View.ld_unit_zero (S := S2000x64) hz0]
  obtain ⟨e0, e1, e2, e3, e4, e5, e6, e7⟩ := idx_facts0 t
  have ht := tlt0 t
  funext j
  refine block0_eq (V c main_arg0) (V c main_v13) (V c main_arg2) _ _ _ (win0_3.index t (0 : Fin 2)) (by omega) ?_ ?_ ?_ j _ ?_ ?_
  · intro p k
    show (V c main_arg0 : S12288x2000.Idx → EReal) (((cfg0.win 0).blk t).view.emb (ix2 p k)) = _
    refine congrArg _ (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 2000 + 1 * k.val = k.val; omega
  · intro p
    show (V c main_v13 : S12288x1.Idx → EReal) (((cfg0.win 1).blk t).view.emb (ix2 p (0 : Fin 1))) = _
    refine congrArg _ (funext fun a => Fin.ext ?_)
    match a with
    | ⟨0, _⟩ => show win0_1.index t (0 : Fin 2) * 1024 + 1 * p.val = win0_3.index t (0 : Fin 2) * 1024 + p.val; omega
    | ⟨1, _⟩ => show win0_1.index t (1 : Fin 2) * 1 + 1 * 0 = 0; omega
  · intro k n
    show (V c main_arg2 : S2000x64.Idx → EReal) (((cfg0.win 2).blk t).view.emb (ix2 k n)) = _
    refine congrArg _ (funext fun a => Fin.ext ?_)
    match a with
    | ⟨0, _⟩ => show win0_2.index t (0 : Fin 2) * 2000 + 1 * k.val = k.val; omega
    | ⟨1, _⟩ => show win0_2.index t (1 : Fin 2) * 64 + 1 * n.val = n.val; omega
  · show win0_3.index t (0 : Fin 2) * 1024 + 1 * (j 0).val = win0_3.index t (0 : Fin 2) * 1024 + (j 0).val; omega
  · show win0_3.index t (1 : Fin 2) * 64 + 1 * (j 1).val = (j 1).val; omega

/-- An index of the output array is in point `t`'s block iff each coordinate is in the block's range on its axis. -/
theorem mem_blk0 (t : Fin cfg0.N) (i : S12288x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v14).slice (win0_3.rect t)).set ↔ _
  rw [View.set_slice_whole, Rect.mem_set_unit]
  exact Iff.rfl

/-- Every row of the output is in the block of the point numbered by the row's quotient by 1024. -/
theorem cover0 (i : S12288x64.Idx) : ∃ t : Fin cfg0.N, (cfg0.win 3).flush t = true ∧ i ∈ ((cfg0.win 3).blk t).view.set := by
  have hi0 : (i 0).val < 12288 := (i 0).isLt
  have hi1 : (i 1).val < 64 := (i 1).isLt
  have hq : (i 0).val / 1024 < 12 := by omega
  obtain ⟨t0, ht0⟩ : ∃ t0 : Fin cfg0.N, t0.val = (i 0).val / 1024 := ⟨⟨_, Nat.lt_of_lt_of_eq hq N_0.symm⟩, rfl⟩
  obtain ⟨e0, e1, e2, e3, e4, e5, e6, e7⟩ := idx_facts0 t0
  refine ⟨t0, flush0_3 t0, ?_⟩
  rw [mem_blk0]
  intro a
  match a with
  | ⟨0, _⟩ => show win0_3.index t0 (0 : Fin 2) * 1024 ≤ (i 0).val ∧ (i 0).val < win0_3.index t0 (0 : Fin 2) * 1024 + 1024; omega
  | ⟨1, _⟩ => show win0_3.index t0 (1 : Fin 2) * 64 ≤ (i 1).val ∧ (i 1).val < win0_3.index t0 (1 : Fin 2) * 64 + 64; omega

/-- The output array of region 0 after its twelve points: the scaled product of the arrays the region found. -/
theorem region0_value (c : Dev nD) :
    (dat0 (F := Ideal) V c).arrAt 3 cfg0.N = Cert.Spec.scaledProduct (V c main_arg0) (V c main_v13) (V c main_arg2) :=
  (dat0 (F := Ideal) V c).arrAt_eq_of_cover 3 (G0 V c) (fun t _ => flushed0_eq V c t) cover0

end Cert.KernelIdeal.HandValue

end
-- ==== Proof.Ideal.Value1.lean ====
/-
  The array the second scaled matrix product leaves, on the extended reals.

  At a grid point the body stores the product of 1024 scaled rows with the whole right operand. Read at a row p and a
  column n of the block, that product is the sum over k of (x(p,k) · s(p,0)) · w(k,n) (rounding to the narrower format
  is the identity on the extended reals). The block at point t sits at rows 1024·t … 1024·t + 1023 of the output, and
  the left operand's and the scale column's blocks sit at the same rows of their arrays, so what point t writes back
  is the block of `Spec.scaledProduct` of the three whole arrays; the twelve blocks tile the 12288 rows, so the
  output array ends as that function.
-/
import proofs.«127199_j2207613190405_2_alg».proof.Proof.Ideal.Region1
import proofs.«127199_j2207613190405_2_alg».proof.Proof.Spec
import proofs.«127199_j2207613190405_2_alg».proof.Proof.LibColumnOps
import proofs.«127199_j2207613190405_2_alg».proof.Proof.LibTileRead
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-- The product's dimension numbers: the left operand's second axis against the right operand's first. -/
theorem plainDot1 : Cert.Lib.TileRead.PlainDot (M := 1024) (K := 64) (N := 64) dot_S1024x64_S64x64_S1024x64_1_0_0_1_n_n where
  hr := rfl
  hs := rfl
  l0 := fun j q => by
    unfold DotDims.lhsIdx
    rw [dif_neg (show ¬(0 : Fin S1024x64.rank) ∈ dot_S1024x64_S64x64_S1024x64_1_0_0_1_n_n.lhsBatch by decide),
      dif_pos (show (0 : Fin S1024x64.rank) ∈ dot_S1024x64_S64x64_S1024x64_1_0_0_1_n_n.lhsNonContracting by decide)]
    rfl
  l1 := fun j q => dot_S1024x64_S64x64_S1024x64_1_0_0_1_n_n.lhsIdx_val_of_single rfl j q
  r0 := fun j q => dot_S1024x64_S64x64_S1024x64_1_0_0_1_n_n.rhsIdx_val_of_single rfl j q
  r1 := fun j q => by
    unfold DotDims.rhsIdx
    rw [dif_neg (show ¬(1 : Fin S64x64.rank) ∈ dot_S1024x64_S64x64_S1024x64_1_0_0_1_n_n.rhsBatch by decide),
      dif_pos (show (1 : Fin S64x64.rank) ∈ dot_S1024x64_S64x64_S1024x64_1_0_0_1_n_n.rhsNonContracting by decide)]
    rfl

/-- The body's stored value at row `p`, column `n` of the block: the scaled rows times the right operand. -/
theorem pay1_apply (x0 : Vec Ideal S1024x64 .f32) (x1 : Vec Ideal S1024x1 .f32) (x2 : Vec Ideal S64x64 .f32)
    (p : Fin 1024) (n : Fin 64) :
    k1_pay1 x0 x1 x2 (ix2 p n) = ∑ k : Fin 64, (x0 (ix2 p k) * x1 (ix2 p (0 : Fin 1))) * x2 (ix2 k n) := by
  unfold k1_pay1
  refine (Cert.Lib.TileRead.matmul_zero_plain_apply dot_S1024x64_S64x64_S1024x64_1_0_0_1_n_n plainDot1 none _ _ p n).trans ?_
  refine Finset.sum_congr rfl fun k _ => ?_
  rw [truncf_apply, truncf_apply, mulf_apply, Idealize.ShloMosaic.ColumnOps.broadcastTo_col_apply, shapeCast_self, shapeCast_self]

/-- The block identity over variables: blocks `x0 x1 x2` that are rows `1024·i …` of `A0`, the same rows of the
    column `A1`, and the whole of `A2`, give — at an index `j` of the block that sits at `J` in the output — the
    scaled product of the whole arrays at `J`. -/
theorem block1_eq (A0 : S12288x64.Idx → EReal) (A1 : S12288x1.Idx → EReal) (A2 : S64x64.Idx → EReal)
    (x0 : Vec Ideal S1024x64 .f32) (x1 : Vec Ideal S1024x1 .f32) (x2 : Vec Ideal S64x64 .f32)
    (i : Nat) (hi : i ≤ 11)
    (h0 : ∀ (p : Fin 1024) (k : Fin 64), x0 (ix2 p k) = A0 (ix2 (⟨i * 1024 + p.val, by have := p.isLt; omega⟩ : Fin 12288) k))
    (h1 : ∀ (p : Fin 1024), x1 (ix2 p (0 : Fin 1)) = A1 (ix2 (⟨i * 1024 + p.val, by have := p.isLt; omega⟩ : Fin 12288) (0 : Fin 1)))
    (h2 : ∀ (k : Fin 64) (n : Fin 64), x2 (ix2 k n) = A2 (ix2 k n))
    (j : S1024x64.Idx) (J : S12288x64.Idx) (hJ0 : (J 0).val = i * 1024 + (j 0).val) (hJ1 : (J 1).val = (j 1).val) :
    k1_pay1 x0 x1 x2 j = Cert.Spec.scaledProduct A0 A1 A2 J := by
  obtain ⟨p, n, rfl⟩ : ∃ (p : Fin 1024) (n : Fin 64), j = ix2 p n := ⟨j 0, j 1, eq_ix2 j⟩
  rw [pay1_apply]
  have e0 : (⟨(J 0).val, (J 0).isLt⟩ : Fin 12288) = ⟨i * 1024 + p.val, by have := p.isLt; omega⟩ := Fin.ext hJ0
  have e1 : (⟨(J 1).val, (J 1).isLt⟩ : Fin 64) = n := Fin.ext hJ1
  show _ = ∑ k : Fin 64, (A0 (ix2 (⟨(J 0).val, (J 0).isLt⟩ : Fin 12288) k) * A1 (ix2 (⟨(J 0).val, (J 0).isLt⟩ : Fin 12288) (0 : Fin 1)))
    * A2 (ix2 k (⟨(J 1).val, (J 1).isLt⟩ : Fin 64))
  rw [e0, e1]
  refine Finset.sum_congr rfl fun k _ => ?_
  rw [h0, h1, h2]

theorem hz1 : (![0, 0] : Fin 2 → Nat) = fun _ => 0 := funext fun a => by fin_cases a <;> rfl

/-- The printed index maps over the twelve points: the left operand's and the scale column's blocks move with the
    output's, the right operand's stays, and the output's block index is the point's number. -/
theorem idx_facts1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

variable (V : (c : Dev nD) → (b : Ref sig .tc) → Buf (Elt Ideal) ((c : Thread nD τ).loc b))

/-- The whole output array of the region, as the function of the three whole input arrays. -/
abbrev G1 (c : Dev nD) : S12288x64.Idx → EReal :=
  Cert.Spec.scaledProduct (V c main_v32 : S12288x64.Idx → EReal) (V c main_v33 : S12288x1.Idx → EReal) (V c main_arg4 : S64x64.Idx → EReal)

theorem tlt1 (t : Fin cfg1.N) : t.val ≤ 11 := by
  have h := t.isLt
  have hN : cfg1.N = 12 := N_1
  omega

/-- What point `t` writes back is block `t` of the scaled product of the whole arrays. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S1024x64) hz1, View.ld_unit_zero (S := S1024x1) hz1, View.ld_unit_zero (S := S64x64) hz1]
  obtain ⟨e0, e1, e2, e3, e4, e5, e6, e7⟩ := idx_facts1 t
  have ht := tlt1 t
  funext j
  refine block1_eq (V c main_v32) (V c main_v33) (V c main_arg4) _ _ _ (win1_3.index t (0 : Fin 2)) (by omega) ?_ ?_ ?_ j _ ?_ ?_
  · intro p k
    show (V c main_v32 : S12288x64.Idx → EReal) (((cfg1.win 0).blk t).view.emb (ix2 p k)) = _
    refine congrArg _ (funext fun a => Fin.ext ?_)
    match a with
    | ⟨0, _⟩ => show win1_0.index t (0 : Fin 2) * 1024 + 1 * p.val = win1_3.index t (0 : Fin 2) * 1024 + p.val; omega
    | ⟨1, _⟩ => show win1_0.index t (1 : Fin 2) * 64 + 1 * k.val = k.val; omega
  · intro p
    show (V c main_v33 : S12288x1.Idx → EReal) (((cfg1.win 1).blk t).view.emb (ix2 p (0 : Fin 1))) = _
    refine congrArg _ (funext fun a => Fin.ext ?_)
    match a with
    | ⟨0, _⟩ => show win1_1.index t (0 : Fin 2) * 1024 + 1 * p.val = win1_3.index t (0 : Fin 2) * 1024 + p.val; omega
    | ⟨1, _⟩ => show win1_1.index t (1 : Fin 2) * 1 + 1 * 0 = 0; omega
  · intro k n
    show (V c main_arg4 : S64x64.Idx → EReal) (((cfg1.win 2).blk t).view.emb (ix2 k n)) = _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * n.val = n.val; omega
  · show win1_3.index t (0 : Fin 2) * 1024 + 1 * (j 0).val = win1_3.index t (0 : Fin 2) * 1024 + (j 0).val; omega
  · show win1_3.index t (1 : Fin 2) * 64 + 1 * (j 1).val = (j 1).val; omega

/-- An index of the output array is in point `t`'s block iff each coordinate is in the block's range on its axis. -/
theorem mem_blk1 (t : Fin cfg1.N) (i : S12288x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v34).slice (win1_3.rect t)).set ↔ _
  rw [View.set_slice_whole, Rect.mem_set_unit]
  exact Iff.rfl

/-- Every row of the output is in the block of the point numbered by the row's quotient by 1024. -/
theorem cover1 (i : S12288x64.Idx) : ∃ t : Fin cfg1.N, (cfg1.win 3).flush t = true ∧ i ∈ ((cfg1.win 3).blk t).view.set := by
  have hi0 : (i 0).val < 12288 := (i 0).isLt
  have hi1 : (i 1).val < 64 := (i 1).isLt
  have hq : (i 0).val / 1024 < 12 := by omega
  obtain ⟨t0, ht0⟩ : ∃ t0 : Fin cfg1.N, t0.val = (i 0).val / 1024 := ⟨⟨_, Nat.lt_of_lt_of_eq hq N_1.symm⟩, rfl⟩
  obtain ⟨e0, e1, e2, e3, e4, e5, e6, e7⟩ := idx_facts1 t0
  refine ⟨t0, flush1_3 t0, ?_⟩
  rw [mem_blk1]
  intro a
  match a with
  | ⟨0, _⟩ => show win1_3.index t0 (0 : Fin 2) * 1024 ≤ (i 0).val ∧ (i 0).val < win1_3.index t0 (0 : Fin 2) * 1024 + 1024; omega
  | ⟨1, _⟩ => show win1_3.index t0 (1 : Fin 2) * 64 ≤ (i 1).val ∧ (i 1).val < win1_3.index t0 (1 : Fin 2) * 64 + 64; omega

/-- The output array of region 1 after its twelve points: the scaled product of the arrays the region found. -/
theorem region1_value (c : Dev nD) :
    (dat1 (F := Ideal) V c).arrAt 3 cfg1.N = Cert.Spec.scaledProduct (V c main_v32) (V c main_v33) (V c main_arg4) :=
  (dat1 (F := Ideal) V c).arrAt_eq_of_cover 3 (G1 V c) (fun t _ => flushed1_eq V c t) cover1

end Cert.KernelIdeal.HandValue

end
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.Ideal.Value2.lean ====
/-
  The array the inner-product decode leaves, on the extended reals.

  At a grid point (a, b) the body stores the product of 2048 rows of the input with the transpose of 2048 rows of the
  SAME input. Read at a row p and a column q of the block, that product is the sum over k of x0(p,k) · x1(q,k). The
  output block at point t = 6·a + b sits at rows 2048·a … and columns 2048·b … of the output; the first input block
  sits at rows 2048·a … of the input array and the second at rows 2048·b … of it, so what point t writes back is the
  block of `Spec.gram` of the whole input array; the thirty-six blocks tile the 12288 × 12288 output, so the output
  array ends as that function.
-/
import proofs.«127199_j2207613190405_2_alg».proof.Proof.Ideal.Region2
import proofs.«127199_j2207613190405_2_alg».proof.Proof.Spec
import proofs.«127199_j2207613190405_2_alg».proof.Proof.LibTransDot
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-- The product's dimension numbers: the second axis of the left operand against the second axis of the right one. -/
theorem transDot2 : Idealize.ShloMosaic.TransDot.TransDot (M := 2048) (K := 64) (N := 2048) dot_S2048x64_S2048x64_S2048x2048_1_1_0_0_n_n where
  hr := rfl
  hs := rfl
  l0 := fun j q => by
    unfold DotDims.lhsIdx
    rw [dif_neg (show ¬(0 : Fin S2048x64.rank) ∈ dot_S2048x64_S2048x64_S2048x2048_1_1_0_0_n_n.lhsBatch by decide),
      dif_pos (show (0 : Fin S2048x64.rank) ∈ dot_S2048x64_S2048x64_S2048x2048_1_1_0_0_n_n.lhsNonContracting by decide)]
    rfl
  l1 := fun j q => dot_S2048x64_S2048x64_S2048x2048_1_1_0_0_n_n.lhsIdx_val_of_single rfl j q
  r0 := fun j q => by
    unfold DotDims.rhsIdx
    rw [dif_neg (show ¬(0 : Fin S2048x64.rank) ∈ dot_S2048x64_S2048x64_S2048x2048_1_1_0_0_n_n.rhsBatch by decide),
      dif_pos (show (0 : Fin S2048x64.rank) ∈ dot_S2048x64_S2048x64_S2048x2048_1_1_0_0_n_n.rhsNonContracting by decide)]
    rfl
  r1 := fun j q => dot_S2048x64_S2048x64_S2048x2048_1_1_0_0_n_n.rhsIdx_val_of_single rfl j q

/-- The body's stored value at row `p`, column `q` of the block: the rows of the first block against the rows of the second. -/
theorem pay2_apply (x0 x1 : Vec Ideal S2048x64 .bf16) (p q : Fin 2048) :
    k2_pay1 x0 x1 (ix2 p q) = ∑ k : Fin 64, x0 (ix2 p k) * x1 (ix2 q k) := by
  unfold k2_pay1
  refine (Idealize.ShloMosaic.TransDot.matmul_zero_trans_apply dot_S2048x64_S2048x64_S2048x2048_1_1_0_0_n_n transDot2 none _ _ p q).trans ?_
  refine Finset.sum_congr rfl fun k _ => ?_
  rw [shapeCast_self, shapeCast_self]

/-- The block identity over variables: blocks `x0 x1` that are rows `2048·a …` and rows `2048·b …` of `A` give — at
    an index `j` of the block that sits at `J` in the output — the product of `A` with its transpose at `J`. -/
theorem block2_eq (A : S12288x64.Idx → EReal) (x0 x1 : Vec Ideal S2048x64 .bf16)
    (a b : Nat) (ha : a ≤ 5) (hb : b ≤ 5)
    (h0 : ∀ (p : Fin 2048) (k : Fin 64), x0 (ix2 p k) = A (ix2 (⟨a * 2048 + p.val, by have := p.isLt; omega⟩ : Fin 12288) k))
    (h1 : ∀ (p : Fin 2048) (k : Fin 64), x1 (ix2 p k) = A (ix2 (⟨b * 2048 + p.val, by have := p.isLt; omega⟩ : Fin 12288) k))
    (j : S2048x2048.Idx) (J : S12288x12288.Idx) (hJ0 : (J 0).val = a * 2048 + (j 0).val) (hJ1 : (J 1).val = b * 2048 + (j 1).val) :
    k2_pay1 x0 x1 j = Cert.Spec.gram A J := by
  obtain ⟨p, q, rfl⟩ : ∃ (p : Fin 2048) (q : Fin 2048), j = ix2 p q := ⟨j 0, j 1, eq_ix2 j⟩
  rw [pay2_apply]
  have e0 : (⟨(J 0).val, (J 0).isLt⟩ : Fin 12288) = ⟨a * 2048 + p.val, by have := p.isLt; omega⟩ := Fin.ext hJ0
  have e1 : (⟨(J 1).val, (J 1).isLt⟩ : Fin 12288) = ⟨b * 2048 + q.val, by have := q.isLt; omega⟩ := Fin.ext hJ1
  show _ = ∑ k : Fin 64, A (ix2 (⟨(J 0).val, (J 0).isLt⟩ : Fin 12288) k) * A (ix2 (⟨(J 1).val, (J 1).isLt⟩ : Fin 12288) k)
  rw [e0, e1]
  refine Finset.sum_congr rfl fun k _ => ?_
  rw [h0, h1]

theorem hz2 : (![0, 0] : Fin 2 → Nat) = fun _ => 0 := funext fun a => by fin_cases a <;> rfl

/-- The printed index maps over the thirty-six points: the first input's block moves with the output's rows, the second
    input's with the output's columns, and the output's block index is the point's number split by 6. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) = t.val / 6
    ∧ win2_2.index t (1 : Fin 2) = t.val % 6 :=
  (by decide +kernel : ∀ t : Fin grid2.N, _)

variable (V : (c : Dev nD) → (b : Ref sig .tc) → Buf (Elt Ideal) ((c : Thread nD τ).loc b))

/-- The whole output array of the region, as the function of the whole input array. -/
abbrev G2 (c : Dev nD) : S12288x12288.Idx → EReal :=
  Cert.Spec.gram (V c main_v53 : S12288x64.Idx → EReal)

theorem tlt2 (t : Fin cfg2.N) : t.val ≤ 35 := by
  have h := t.isLt
  have hN : cfg2.N = 36 := N_2
  omega

/-- What point `t` writes back is block `t` of the product of the whole input array with its transpose. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S2048x64) hz2]
  obtain ⟨e0, e1, e2, e3, e4, e5⟩ := idx_facts2 t
  have ht := tlt2 t
  funext j
  refine block2_eq (V c main_v53) _ _ (win2_2.index t (0 : Fin 2)) (win2_2.index t (1 : Fin 2)) (by omega) (by omega) ?_ ?_ j _ ?_ ?_
  · intro p k
    show (V c main_v53 : S12288x64.Idx → EReal) (((cfg2.win 0).blk t).view.emb (ix2 p k)) = _
    refine congrArg _ (funext fun a => Fin.ext ?_)
    match a with
    | ⟨0, _⟩ => show win2_0.index t (0 : Fin 2) * 2048 + 1 * p.val = win2_2.index t (0 : Fin 2) * 2048 + p.val; omega
    | ⟨1, _⟩ => show win2_0.index t (1 : Fin 2) * 64 + 1 * k.val = k.val; omega
  · intro p k
    show (V c main_v53 : S12288x64.Idx → EReal) (((cfg2.win 1).blk t).view.emb (ix2 p k)) = _
    refine congrArg _ (funext fun a => Fin.ext ?_)
    match a with
    | ⟨0, _⟩ => show win2_1.index t (0 : Fin 2) * 2048 + 1 * p.val = win2_2.index t (1 : Fin 2) * 2048 + p.val; omega
    | ⟨1, _⟩ => show win2_1.index t (1 : Fin 2) * 64 + 1 * k.val = k.val; omega
  · show win2_2.index t (0 : Fin 2) * 2048 + 1 * (j 0).val = win2_2.index t (0 : Fin 2) * 2048 + (j 0).val; omega
  · show win2_2.index t (1 : Fin 2) * 2048 + 1 * (j 1).val = win2_2.index t (1 : Fin 2) * 2048 + (j 1).val; omega

/-- An index of the output array is in point `t`'s block iff each coordinate is in the block's range on its axis. -/
theorem mem_blk2 (t : Fin cfg2.N) (i : S12288x12288.Idx) :
    i ∈ ((cfg2.win 2).blk t).view.set ↔ ∀ a : Fin 2, win2_2.index t a * S2048x2048.size a ≤ (i a).val ∧ (i a).val < win2_2.index t a * S2048x2048.size a + S2048x2048.size a := by
  show i ∈ ((View.whole main_v54).slice (win2_2.rect t)).set ↔ _
  rw [View.set_slice_whole, Rect.mem_set_unit]
  exact Iff.rfl

/-- Every index of the output is in the block of the point numbered 6 · (row / 2048) + column / 2048. -/
theorem cover2 (i : S12288x12288.Idx) : ∃ t : Fin cfg2.N, (cfg2.win 2).flush t = true ∧ i ∈ ((cfg2.win 2).blk t).view.set := by
  have hi0 : (i 0).val < 12288 := (i 0).isLt
  have hi1 : (i 1).val < 12288 := (i 1).isLt
  have hq : 6 * ((i 0).val / 2048) + (i 1).val / 2048 < 36 := by omega
  obtain ⟨t0, ht0⟩ : ∃ t0 : Fin cfg2.N, t0.val = 6 * ((i 0).val / 2048) + (i 1).val / 2048 := ⟨⟨_, Nat.lt_of_lt_of_eq hq N_2.symm⟩, rfl⟩
  obtain ⟨e0, e1, e2, e3, e4, e5⟩ := idx_facts2 t0
  refine ⟨t0, flush2_2 t0, ?_⟩
  rw [mem_blk2]
  intro a
  match a with
  | ⟨0, _⟩ => show win2_2.index t0 (0 : Fin 2) * 2048 ≤ (i 0).val ∧ (i 0).val < win2_2.index t0 (0 : Fin 2) * 2048 + 2048; omega
  | ⟨1, _⟩ => show win2_2.index t0 (1 : Fin 2) * 2048 ≤ (i 1).val ∧ (i 1).val < win2_2.index t0 (1 : Fin 2) * 2048 + 2048; omega

/-- The output array of region 2 after its thirty-six points: the product of the input array the region found with
    its own transpose. -/
theorem region2_value (c : Dev nD) :
    (dat2 (F := Ideal) V c).arrAt 2 cfg2.N = Cert.Spec.gram (V c main_v53) :=
  (dat2 (F := Ideal) V c).arrAt_eq_of_cover 2 (G2 V c) (fun t _ => flushed2_eq V c t) cover2

end Cert.KernelIdeal.HandValue

end
-- ==== Proof.BridgeTail.lean ====
/-
  The host side of both programs as functions of whole arrays. The two programs run the same host operations around
  their matrix products: the degree normalisation of an endpoint list (`degNorm`) and the part of a layer after its
  matrix product (`layerTail`). Each host stretch of the kernel program, read back from an arbitrary valuation, is one of
  these functions of the buffers it reads; each stage of the reference program is the same function of the stage before.
-/
import proofs.«127199_j2207613190405_2_alg».proof.Proof.Gen.KernelIdeal.Regions
import proofs.«127199_j2207613190405_2_alg».proof.Proof.Gen.ReferenceIdeal.Read

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]

/-- One layer after its matrix product: gather the rows of `h` at the (wrapped) source nodes, weight each edge,
    scatter-add into the destination nodes from zero, scale row r by `inn r`, add the bias along the columns. -/
def layerTail (h : (⟨S12288x64, .f32⟩ : BufTy).Contents (Elt F)) (ew : (⟨S393216x1, .f32⟩ : BufTy).Contents (Elt F))
    (src dst : (⟨S393216, .i32⟩ : BufTy).Contents (Elt F)) (inn : (⟨S12288, .f32⟩ : BufTy).Contents (Elt F))
    (b : (⟨S64, .f32⟩ : BufTy).Contents (Elt F)) : (⟨S12288x64, .f32⟩ : BufTy).Contents (Elt F) :=
  addf
    (mulf
      (Host.scatterAdd scatter_S12288x64_S393216x1_S393216x64_1_0_0_1
        (broadcastInDim S12288x64 ![] bcast_S_S12288x64 (constant (F := F) S_ .f32 0x00000000#32))
        (broadcastInDim S393216x1 ![0] bcast_S393216_S393216x1_0 dst)
        (mulf
          (Host.gather gather_S12288x64_S393216x1_S393216x64_1_0_n_n_0_1_164 h
            (broadcastInDim S393216x1 ![0] bcast_S393216_S393216x1_0
              (select (cmpi .slt src (broadcastInDim S393216 ![] bcast_S_S393216 (constantI S_ 32 0#32 : (⟨S_, .i32⟩ : BufTy).Contents (Elt F))))
                (addi src (broadcastInDim S393216 ![] bcast_S_S393216 (constantI S_ 32 12288#32 : (⟨S_, .i32⟩ : BufTy).Contents (Elt F)))) src)))
          (broadcastInDim S393216x64 ![0, 1] bcast_S393216x1_S393216x64_0_1 ew)))
      (broadcastInDim S12288x64 ![0, 1] bcast_S12288x1_S12288x64_0_1 (broadcastInDim S12288x1 ![0] bcast_S12288_S12288x1_0 inn)))
    (broadcastInDim S12288x64 ![0, 1] bcast_S1x64_S12288x64_0_1 (broadcastInDim S1x64 ![1] bcast_S64_S1x64_1 b))

/-! ## The kernel program's host stretches, read back from an arbitrary valuation -/

/-- The degree normalisation of one endpoint list: the number of edges at each node (a scatter-add of ones from zero),
    clipped below at 1, to the power -1/2. -/
def degNorm (idx : (⟨S393216, .i32⟩ : BufTy).Contents (Elt F)) : (⟨S12288, .f32⟩ : BufTy).Contents (Elt F) :=
  Host.powf
    (maximumf (broadcastInDim S12288 ![] bcast_S_S12288 (id (constant (F := F) S_ .f32 0x3F800000#32)))
      (Host.scatterAdd scatter_S12288_S393216x1_S393216_n_0_0_1
        (broadcastInDim S12288 ![] bcast_S_S12288 (constant (F := F) S_ .f32 0x00000000#32))
        (broadcastInDim S393216x1 ![0] bcast_S393216_S393216x1_0 idx)
        (broadcastInDim S393216 ![] bcast_S_S393216 (constant (F := F) S_ .f32 0x3F800000#32))))
    (broadcastInDim S12288 ![] bcast_S_S12288 (constant (F := F) S_ .f32 0xBF000000#32))

theorem after_hostOps0_v3 (W : Valuation τ sig (Elt F)) :
    StableHlo.after hostOps0 W (Proc.devRef .tc main_v3)
      = Host.scatterAdd scatter_S12288_S393216x1_S393216_n_0_0_1
          (broadcastInDim S12288 ![] bcast_S_S12288 (constant (F := F) S_ .f32 0x00000000#32))
          (broadcastInDim S393216x1 ![0] bcast_S393216_S393216x1_0 (W (Proc.devRef .tc main_arg6)))
          (broadcastInDim S393216 ![] bcast_S_S393216 (constant (F := F) S_ .f32 0x3F800000#32)) := by
  after_results_simp <;> rfl

theorem after_hostOps0_v0 (W : Valuation τ sig (Elt F)) :
    StableHlo.after hostOps0 W (Proc.devRef .tc main_v0)
      = broadcastInDim S393216 ![] bcast_S_S393216 (constant (F := F) S_ .f32 0x3F800000#32) := by
  after_results_simp <;> rfl

theorem after_hostOps0_cst_1 (W : Valuation τ sig (Elt F)) :
    StableHlo.after hostOps0 W (Proc.devRef .tc main_cst_1) = constant (F := F) S_ .f32 0x3F800000#32 := by
  after_results_simp <;> rfl

theorem after_hostOps0_1_v4 (W : Valuation τ sig (Elt F)) :
    StableHlo.after hostOps0_1 W (Proc.devRef .tc main_v4)
      = maximumf (broadcastInDim S12288 ![] bcast_S_S12288 (id (W (Proc.devRef .tc main_cst_1)))) (W (Proc.devRef .tc main_v3)) := by
  after_results_simp <;> rfl

theorem after_hostOps0_2_v7 (W : Valuation τ sig (Elt F)) :
    StableHlo.after hostOps0_2 W (Proc.devRef .tc main_v7)
      = Host.scatterAdd scatter_S12288_S393216x1_S393216_n_0_0_1
          (broadcastInDim S12288 ![] bcast_S_S12288 (constant (F := F) S_ .f32 0x00000000#32))
          (broadcastInDim S393216x1 ![0] bcast_S393216_S393216x1_0 (W (Proc.devRef .tc main_arg7)))
          (W (Proc.devRef .tc main_v0)) := by
  after_results_simp <;> rfl

theorem after_hostOps0_2_cst_3 (W : Valuation τ sig (Elt F)) :
    StableHlo.after hostOps0_2 W (Proc.devRef .tc main_cst_3) = constant (F := F) S_ .f32 0x3F800000#32 := by
  after_results_simp <;> rfl

theorem after_hostOps0_3_v8 (W : Valuation τ sig (Elt F)) :
    StableHlo.after hostOps0_3 W (Proc.devRef .tc main_v8)
      = maximumf (broadcastInDim S12288 ![] bcast_S_S12288 (id (W (Proc.devRef .tc main_cst_3)))) (W (Proc.devRef .tc main_v7)) := by
  after_results_simp <;> rfl

theorem after_hostOps0_4_v10 (W : Valuation τ sig (Elt F)) :
    StableHlo.after hostOps0_4 W (Proc.devRef .tc main_v10)
      = Host.powf (W (Proc.devRef .tc main_v4)) (broadcastInDim S12288 ![] bcast_S_S12288 (constant (F := F) S_ .f32 0xBF000000#32)) := by
  after_results_simp <;> rfl

theorem after_hostOps0_4_v12 (W : Valuation τ sig (Elt F)) :
    StableHlo.after hostOps0_4 W (Proc.devRef .tc main_v12)
      = Host.powf (W (Proc.devRef .tc main_v8)) (broadcastInDim S12288 ![] bcast_S_S12288 (constant (F := F) S_ .f32 0xBF000000#32)) := by
  after_results_simp <;> rfl

theorem after_hostOps0_4_v13 (W : Valuation τ sig (Elt F)) :
    StableHlo.after hostOps0_4 W (Proc.devRef .tc main_v13)
      = shapeCast S12288x1
          (Host.powf (W (Proc.devRef .tc main_v4)) (broadcastInDim S12288 ![] bcast_S_S12288 (constant (F := F) S_ .f32 0xBF000000#32)))
          shapeCasts_S12288_S12288x1 := by
  after_results_simp <;> rfl

theorem after_hostOps1_v32 (W : Valuation τ sig (Elt F)) :
    StableHlo.after hostOps1 W (Proc.devRef .tc main_v32)
      = layerTail (W (Proc.devRef .tc main_v14)) (W (Proc.devRef .tc main_arg1)) (W (Proc.devRef .tc main_arg6))
          (W (Proc.devRef .tc main_arg7)) (W (Proc.devRef .tc main_v12)) (W (Proc.devRef .tc main_arg3)) := by
  after_results_simp <;> rfl

theorem after_hostOps1_v33 (W : Valuation τ sig (Elt F)) :
    StableHlo.after hostOps1 W (Proc.devRef .tc main_v33)
      = shapeCast S12288x1 (W (Proc.devRef .tc main_v10)) shapeCasts_S12288_S12288x1 := by
  after_results_simp <;> rfl

theorem after_hostOps2_v52 (W : Valuation τ sig (Elt F)) :
    StableHlo.after hostOps2 W (Proc.devRef .tc main_v52)
      = layerTail (W (Proc.devRef .tc main_v34)) (W (Proc.devRef .tc main_arg1)) (W (Proc.devRef .tc main_arg6))
          (W (Proc.devRef .tc main_arg7)) (W (Proc.devRef .tc main_v12)) (W (Proc.devRef .tc main_arg5)) := by
  after_results_simp <;> rfl

theorem after_hostOps2_v53 (W : Valuation τ sig (Elt F)) :
    StableHlo.after hostOps2 W (Proc.devRef .tc main_v53)
      = truncf .bf16 (layerTail (W (Proc.devRef .tc main_v34)) (W (Proc.devRef .tc main_arg1)) (W (Proc.devRef .tc main_arg6))
          (W (Proc.devRef .tc main_arg7)) (W (Proc.devRef .tc main_v12)) (W (Proc.devRef .tc main_arg5))) bitsLt_bf16_f32 := by
  after_results_simp <;> rfl

/-! ## The reference program's stages as the same functions -/

open Cert.ReferenceIdeal.Read in
theorem ref_v10 (x6 : (⟨S393216, .i32⟩ : BufTy).Contents (Elt F)) : val_main_v10 (F := F) x6 = degNorm x6 := rfl

open Cert.ReferenceIdeal.Read in
theorem ref_v12 (x7 : (⟨S393216, .i32⟩ : BufTy).Contents (Elt F)) : val_main_v12 (F := F) x7 = degNorm x7 := rfl

open Cert.ReferenceIdeal.Read in
theorem ref_v34 (x0 : (⟨S12288x2000, .f32⟩ : BufTy).Contents (Elt F)) (x1 : (⟨S393216x1, .f32⟩ : BufTy).Contents (Elt F))
    (x2 : (⟨S2000x64, .f32⟩ : BufTy).Contents (Elt F)) (x3 : (⟨S64, .f32⟩ : BufTy).Contents (Elt F))
    (x6 x7 : (⟨S393216, .i32⟩ : BufTy).Contents (Elt F)) :
    val_main_v34 (F := F) x0 x1 x2 x3 x6 x7
      = layerTail (val_main_v16 (F := F) x0 x2 x6) x1 x6 x7 (val_main_v12 (F := F) x7) x3 := rfl

open Cert.ReferenceIdeal.Read in
theorem ref_v56 (x0 : (⟨S12288x2000, .f32⟩ : BufTy).Contents (Elt F)) (x1 : (⟨S393216x1, .f32⟩ : BufTy).Contents (Elt F))
    (x2 : (⟨S2000x64, .f32⟩ : BufTy).Contents (Elt F)) (x3 : (⟨S64, .f32⟩ : BufTy).Contents (Elt F))
    (x4 : (⟨S64x64, .f32⟩ : BufTy).Contents (Elt F)) (x5 : (⟨S64, .f32⟩ : BufTy).Contents (Elt F))
    (x6 x7 : (⟨S393216, .i32⟩ : BufTy).Contents (Elt F)) :
    val_main_v56 (F := F) x0 x1 x2 x3 x4 x5 x6 x7
      = layerTail (val_main_v38 (F := F) x0 x1 x2 x3 x4 x6 x7) x1 x6 x7 (val_main_v12 (F := F) x7) x5 := rfl

end Cert.Bridge

end
-- ==== Proof.BridgeDots.lean ====
/-
  The three matrix products of the reference program, each as one function of whole arrays on the extended reals:
  a host product into a zero accumulator is the plain sum over the contracted axis, the normalisation broadcast along
  the rows is the column of normalisations read at (r, 0), and the transposed operand read at (k, q) is the operand
  at (q, k).
-/
import proofs.«127199_j2207613190405_2_alg».proof.Proof.Gen.ReferenceIdeal.Read
import proofs.«127199_j2207613190405_2_alg».proof.Proof.Spec

noncomputable section

namespace Cert.Bridge

open Idealize.ShloMosaic Idealize.ShloMosaic.ValueIdx
open Cert.ReferenceIdeal Cert.ReferenceIdeal.Read

/-- A vector viewed as a column: entry (r, 0) of the column is entry r of the vector. -/
theorem shapeCast_col_apply {a : ℕ} {α : Type} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) := by
  refine shapeCast_apply x h _ _ ?_
  rw [Shape.rowMajor_val_one, Shape.rowMajor_val_two]
  show r.val = r.val * 1 + 0
  omega

/-- The first layer's matrix product of the reference: the rows of the features scaled by the column of
    normalisations, times the weights. -/
theorem ref_v16_eq (x0 : (⟨S12288x2000, .f32⟩ : BufTy).Contents (Elt Ideal)) (x2 : (⟨S2000x64, .f32⟩ : BufTy).Contents (Elt Ideal))
    (x6 : (⟨S393216, .i32⟩ : BufTy).Contents (Elt Ideal)) (h : S12288.ShapeCasts S12288x1) :
    val_main_v16 (F := Ideal) x0 x2 x6
      = Cert.Spec.scaledProduct (R := 12288) (K := 2000) (N := 64) x0 (shapeCast S12288x1 (val_main_v10 (F := Ideal) x6) h) x2 := by
  have key : ∀ (r : Fin 12288) (n : Fin 64), val_main_v16 (F := Ideal) x0 x2 x6 (ix2 r n)
      = Cert.Spec.scaledProduct (R := 12288) (K := 2000) (N := 64) x0 (shapeCast S12288x1 (val_main_v10 (F := Ideal) x6) h) x2 (ix2 r n) := by
    intro r n
    rw [Cert.Spec.scaledProduct_apply, val_main_v16_apply]
    refine Finset.sum_congr rfl fun k _ => ?_
    have e1 : lidx_main_v16 (ix2 r n) k = ix2 r k := by
      funext a; match a with | ⟨0, _⟩ => rfl | ⟨1, _⟩ => rfl
    have e2 : ridx_main_v16 (ix2 r n) k = ix2 k n := by
      funext a; match a with | ⟨0, _⟩ => rfl | ⟨1, _⟩ => rfl
    have e3 : idx_main_v13 (idx_main_v14 (ix2 r k)) = ix1 r := by
      funext a; match a with | ⟨0, _⟩ => rfl
    rw [val_main_v15_apply, val_main_v14_apply, val_main_v13_apply, shapeCast_col_apply, e1, e2, e3]
    rfl
  funext i
  rw [eq_ix2 (n0 := 12288) (n1 := 64) i]
  exact key _ _

/-- The second layer's matrix product of the reference: the rows of the first layer's result scaled by the column of
    normalisations, times the weights. -/
theorem ref_v38_eq (x0 : (⟨S12288x2000, .f32⟩ : BufTy).Contents (Elt Ideal)) (x1 : (⟨S393216x1, .f32⟩ : BufTy).Contents (Elt Ideal))
    (x2 : (⟨S2000x64, .f32⟩ : BufTy).Contents (Elt Ideal)) (x3 : (⟨S64, .f32⟩ : BufTy).Contents (Elt Ideal))
    (x4 : (⟨S64x64, .f32⟩ : BufTy).Contents (Elt Ideal)) (x6 x7 : (⟨S393216, .i32⟩ : BufTy).Contents (Elt Ideal))
    (h : S12288.ShapeCasts S12288x1) :
    val_main_v38 (F := Ideal) x0 x1 x2 x3 x4 x6 x7
      = Cert.Spec.scaledProduct (R := 12288) (K := 64) (N := 64) (val_main_v34 (F := Ideal) x0 x1 x2 x3 x6 x7)
          (shapeCast S12288x1 (val_main_v10 (F := Ideal) x6) h) x4 := by
  have key : ∀ (r : Fin 12288) (n : Fin 64), val_main_v38 (F := Ideal) x0 x1 x2 x3 x4 x6 x7 (ix2 r n)
      = Cert.Spec.scaledProduct (R := 12288) (K := 64) (N := 64) (val_main_v34 (F := Ideal) x0 x1 x2 x3 x6 x7)
          (shapeCast S12288x1 (val_main_v10 (F := Ideal) x6) h) x4 (ix2 r n) := by
    intro r n
    rw [Cert.Spec.scaledProduct_apply, val_main_v38_apply]
    refine Finset.sum_congr rfl fun k _ => ?_
    have e1 : lidx_main_v38 (ix2 r n) k = ix2 r k := by
      funext a; match a with | ⟨0, _⟩ => rfl | ⟨1, _⟩ => rfl
    have e2 : ridx_main_v38 (ix2 r n) k = ix2 k n := by
      funext a; match a with | ⟨0, _⟩ => rfl | ⟨1, _⟩ => rfl
    have e3 : idx_main_v35 (idx_main_v36 (ix2 r k)) = ix1 r := by
      funext a; match a with | ⟨0, _⟩ => rfl
    rw [val_main_v37_apply, val_main_v36_apply, val_main_v35_apply, shapeCast_col_apply, e1, e2, e3]
    rfl
  funext i
  rw [eq_ix2 (n0 := 12288) (n1 := 64) i]
  exact key _ _

/-- The decoder of the reference: the second layer's result times its own transpose. -/
theorem ref_v58_eq (x0 : (⟨S12288x2000, .f32⟩ : BufTy).Contents (Elt Ideal)) (x1 : (⟨S393216x1, .f32⟩ : BufTy).Contents (Elt Ideal))
    (x2 : (⟨S2000x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 x7 : (⟨S393216, .i32⟩ : BufTy).Contents (Elt Ideal)) :
    val_main_v58 (F := Ideal) x0 x1 x2 x3 x4 x5 x6 x7
      = Cert.Spec.gram (R := 12288) (K := 64) (val_main_v56 (F := Ideal) x0 x1 x2 x3 x4 x5 x6 x7) := by
  have key : ∀ (r q : Fin 12288), val_main_v58 (F := Ideal) x0 x1 x2 x3 x4 x5 x6 x7 (ix2 r q)
      = Cert.Spec.gram (R := 12288) (K := 64) (val_main_v56 (F := Ideal) x0 x1 x2 x3 x4 x5 x6 x7) (ix2 r q) := by
    intro r q
    rw [Cert.Spec.gram_apply, val_main_v58_apply]
    refine Finset.sum_congr rfl fun k _ => ?_
    have e1 : lidx_main_v58 (ix2 r q) k = ix2 r k := by
      funext a; match a with | ⟨0, _⟩ => rfl | ⟨1, _⟩ => rfl
    have e2 : idx_main_v57 (ridx_main_v58 (ix2 r q) k) = ix2 q k := by
      funext a; match a with | ⟨0, _⟩ => rfl | ⟨1, _⟩ => rfl
    rw [val_main_v57_apply, e1, e2]
  funext i
  rw [eq_ix2 (n0 := 12288) (n1 := 12288) i]
  exact key _ _

/-- On the extended reals a change of float format is the identity. -/
theorem truncf_ideal {s : Shape} {φ ψ : FTy} (y : FVec Ideal s φ) (h : ψ.bits < φ.bits) : truncf ψ y h = y := rfl

end Cert.Bridge

end
-- ==== Proof.HostBridge.lean ====
/-
  The kernel program against the reference program on the extended reals, given what the three kernel regions compute.
  Both programs run the same host operations around their matrix products. Carrying the normalisations and the launch
  arguments through the kernel program's buffers, and replacing each kernel region's output by the matrix product of
  its operands, the buffers the kernel program returns hold the reference program's two results.
-/
import proofs.«127199_j2207613190405_2_alg».proof.Proof.BridgeTail
import proofs.«127199_j2207613190405_2_alg».proof.Proof.BridgeDots

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (outs : Outs (F := F)) (c : Dev nD)

/-! ## The normalisations in the kernel program's buffers -/

/-- A buffer none of the five first stretches writes still holds its launch contents after them. -/
theorem V5_keep (r : Ref sig .tc) (h0 : r ∉ hostOps0_W) (h1 : r ∉ hostOps0_1_W) (h2 : r ∉ hostOps0_2_W)
    (h3 : r ∉ hostOps0_3_W) (h4 : r ∉ hostOps0_4_W) : V5 m c r = m ((c : Thread nD τ).loc r) :=
  (V5_of m c r h4).trans <| (V4_of m c r h3).trans <| (V3_of m c r h2).trans <| (V2_of m c r h1).trans <| (V1_of m c r h0).trans rfl

theorem V1_v3 : V1 m c main_v3
    = Host.scatterAdd scatter_S12288_S393216x1_S393216_n_0_0_1
        (broadcastInDim S12288 ![] bcast_S_S12288 (constant (F := F) S_ .f32 0x00000000#32))
        (broadcastInDim S393216x1 ![0] bcast_S393216_S393216x1_0 (m ((c : Thread nD τ).loc main_arg6)))
        (broadcastInDim S393216 ![] bcast_S_S393216 (constant (F := F) S_ .f32 0x3F800000#32)) :=
  after_hostOps0_v3 (V0 m c)

theorem V1_v0 : V1 m c main_v0 = broadcastInDim S393216 ![] bcast_S_S393216 (constant (F := F) S_ .f32 0x3F800000#32) :=
  after_hostOps0_v0 (V0 m c)

theorem V1_cst_1 : V1 m c main_cst_1 = constant (F := F) S_ .f32 0x3F800000#32 :=
  after_hostOps0_cst_1 (V0 m c)

theorem V2_v4 : V2 m c main_v4
    = maximumf (broadcastInDim S12288 ![] bcast_S_S12288 (id (constant (F := F) S_ .f32 0x3F800000#32)))
        (Host.scatterAdd scatter_S12288_S393216x1_S393216_n_0_0_1
          (broadcastInDim S12288 ![] bcast_S_S12288 (constant (F := F) S_ .f32 0x00000000#32))
          (broadcastInDim S393216x1 ![0] bcast_S393216_S393216x1_0 (m ((c : Thread nD τ).loc main_arg6)))
          (broadcastInDim S393216 ![] bcast_S_S393216 (constant (F := F) S_ .f32 0x3F800000#32))) := by
  refine (after_hostOps0_1_v4 (V1 m c)).trans ?_
  rw [V1_cst_1, V1_v3]

theorem V3_v7 : V3 m c main_v7
    = Host.scatterAdd scatter_S12288_S393216x1_S393216_n_0_0_1
        (broadcastInDim S12288 ![] bcast_S_S12288 (constant (F := F) S_ .f32 0x00000000#32))
        (broadcastInDim S393216x1 ![0] bcast_S393216_S393216x1_0 (m ((c : Thread nD τ).loc main_arg7)))
        (broadcastInDim S393216 ![] bcast_S_S393216 (constant (F := F) S_ .f32 0x3F800000#32)) := by
  refine (after_hostOps0_2_v7 (V2 m c)).trans ?_
  rw [V2_of m c main_arg7 (by decide), V1_of m c main_arg7 (by decide), V2_of m c main_v0 (by decide), V1_v0]

theorem V3_cst_3 : V3 m c main_cst_3 = constant (F := F) S_ .f32 0x3F800000#32 :=
  after_hostOps0_2_cst_3 (V2 m c)

theorem V4_v8 : V4 m c main_v8
    = maximumf (broadcastInDim S12288 ![] bcast_S_S12288 (id (constant (F := F) S_ .f32 0x3F800000#32)))
        (Host.scatterAdd scatter_S12288_S393216x1_S393216_n_0_0_1
          (broadcastInDim S12288 ![] bcast_S_S12288 (constant (F := F) S_ .f32 0x00000000#32))
          (broadcastInDim S393216x1 ![0] bcast_S393216_S393216x1_0 (m ((c : Thread nD τ).loc main_arg7)))
          (broadcastInDim S393216 ![] bcast_S_S393216 (constant (F := F) S_ .f32 0x3F800000#32))) := by
  refine (after_hostOps0_3_v8 (V3 m c)).trans ?_
  rw [V3_cst_3, V3_v7]

/-- The out-degree normalisation, as the kernel program holds it before the first kernel region. -/
theorem V5_v10 : V5 m c main_v10 = degNorm (m ((c : Thread nD τ).loc main_arg6)) := by
  refine (after_hostOps0_4_v10 (V4 m c)).trans ?_
  rw [V4_of m c main_v4 (by decide), V3_of m c main_v4 (by decide), V2_v4]
  rfl

/-- The in-degree normalisation. -/
theorem V5_v12 : V5 m c main_v12 = degNorm (m ((c : Thread nD τ).loc main_arg7)) := by
  refine (after_hostOps0_4_v12 (V4 m c)).trans ?_
  rw [V4_v8]
  rfl

/-- The out-degree normalisation as a column: the first kernel region's second operand. -/
theorem V5_v13 : V5 m c main_v13
    = shapeCast S12288x1 (degNorm (m ((c : Thread nD τ).loc main_arg6))) shapeCasts_S12288_S12288x1 := by
  refine (after_hostOps0_4_v13 (V4 m c)).trans ?_
  rw [V4_of m c main_v4 (by decide), V3_of m c main_v4 (by decide), V2_v4]
  rfl

/-! ## The kernel program's results -/

/-- A buffer nothing before the second stretch's end writes holds its launch contents after the first kernel region. -/
theorem V6_keep (r : Ref sig .tc) (h6 : r ∉ ([main_v14] : List (Ref sig .tc))) (h0 : r ∉ hostOps0_W) (h1 : r ∉ hostOps0_1_W)
    (h2 : r ∉ hostOps0_2_W) (h3 : r ∉ hostOps0_3_W) (h4 : r ∉ hostOps0_4_W) : V6 m outs c r = m ((c : Thread nD τ).loc r) :=
  (V6_of m outs c r h6).trans (V5_keep m c r h0 h1 h2 h3 h4)

/-- Likewise after the second kernel region. -/
theorem V8_keep (r : Ref sig .tc) (h8 : r ∉ ([main_v34] : List (Ref sig .tc))) (h7 : r ∉ hostOps1_W)
    (h6 : r ∉ ([main_v14] : List (Ref sig .tc))) (h0 : r ∉ hostOps0_W) (h1 : r ∉ hostOps0_1_W)
    (h2 : r ∉ hostOps0_2_W) (h3 : r ∉ hostOps0_3_W) (h4 : r ∉ hostOps0_4_W) : V8 m outs c r = m ((c : Thread nD τ).loc r) :=
  (V8_of m outs c r h8).trans <| (V7_of m outs c r h7).trans (V6_keep m outs c r h6 h0 h1 h2 h3 h4)

theorem V6_v12 : V6 m outs c main_v12 = degNorm (m ((c : Thread nD τ).loc main_arg7)) :=
  (V6_of m outs c main_v12 (by decide)).trans (V5_v12 m c)

theorem V8_v12 : V8 m outs c main_v12 = degNorm (m ((c : Thread nD τ).loc main_arg7)) :=
  (V8_of m outs c main_v12 (by decide)).trans <| (V7_of m outs c main_v12 (by decide)).trans (V6_v12 m outs c)

end Cert.Bridge

namespace Cert.Bridge

open Idealize.ShloMosaic Idealize.ShloMosaic.TcCoe Idealize.SL.Sem Idealize.ShloMosaic.StableHlo
open Cert.KernelIdeal Cert.KernelIdeal.Gen
open Cert.ReferenceIdeal.Read (val_main_v10 val_main_v12 val_main_v16 val_main_v34 val_main_v38 val_main_v56 val_main_v58)

/-- If each kernel region leaves in its output the matrix product of its operands, the kernel program's two results are
    the reference program's two results, as functions of the launch arguments. -/
theorem kernel_results (m : (ℓ : Loc nD τ sig) → Buf (Elt Ideal) ℓ) (outs : Outs (F := Ideal)) (c : Dev nD)
    (h0 : outs 6 main_v14 c = Cert.Spec.scaledProduct (R := 12288) (K := 2000) (N := 64)
            (V5 m c main_arg0) (V5 m c main_v13) (V5 m c main_arg2))
    (h1 : outs 8 main_v34 c = Cert.Spec.scaledProduct (R := 12288) (K := 64) (N := 64)
            (V7 m outs c main_v32) (V7 m outs c main_v33) (V7 m outs c main_arg4))
    (h2 : outs 10 main_v54 c = Cert.Spec.gram (R := 12288) (K := 64) (V9 m outs c main_v53)) :
    V10 m outs c main_v54
        = val_main_v58 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ V10 m outs c main_v52
        = val_main_v56 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) := by
  -- the first layer's product
  have e6 : V6 m outs c main_v14
      = val_main_v16 (F := Ideal) (m ((c : Thread nD τ).loc main_arg0)) (m ((c : Thread nD τ).loc main_arg2))
          (m ((c : Thread nD τ).loc main_arg6)) := by
    refine (Function.update_self _ _ _).trans ?_
    rw [h0, V5_keep m c main_arg0 (by decide) (by decide) (by decide) (by decide) (by decide), V5_v13,
      V5_keep m c main_arg2 (by decide) (by decide) (by decide) (by decide) (by decide),
      ref_v16_eq _ _ _ shapeCasts_S12288_S12288x1, ref_v10]
  -- the first layer's result, and the second kernel region's operands
  have e7 : V7 m outs c main_v32
      = val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg6))
          (m ((c : Thread nD τ).loc main_arg7)) := by
    refine (after_hostOps1_v32 (V6 m outs c)).trans ?_
    rw [e6, V6_keep m outs c main_arg1 (by decide) (by decide) (by decide) (by decide) (by decide) (by decide), V6_keep m outs c main_arg6 (by decide) (by decide) (by decide) (by decide) (by decide) (by decide),
      V6_keep m outs c main_arg7 (by decide) (by decide) (by decide) (by decide) (by decide) (by decide), V6_v12, V6_keep m outs c main_arg3 (by decide) (by decide) (by decide) (by decide) (by decide) (by decide), ref_v34, ref_v12]
  have e7b : V7 m outs c main_v33
      = shapeCast S12288x1 (degNorm (m ((c : Thread nD τ).loc main_arg6))) shapeCasts_S12288_S12288x1 := by
    refine (after_hostOps1_v33 (V6 m outs c)).trans ?_
    rw [V6_of m outs c main_v10 (by decide), V5_v10]
  have e7c : V7 m outs c main_arg4 = m ((c : Thread nD τ).loc main_arg4) :=
    (V7_of m outs c main_arg4 (by decide)).trans (V6_keep m outs c main_arg4 (by decide) (by decide) (by decide) (by decide) (by decide) (by decide))
  -- the second layer's product
  have e8 : V8 m outs c main_v34
      = val_main_v38 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg6)) (m ((c : Thread nD τ).loc main_arg7)) := by
    refine (Function.update_self _ _ _).trans ?_
    rw [h1, e7, e7b, e7c, ref_v38_eq _ _ _ _ _ _ _ shapeCasts_S12288_S12288x1, ref_v10]
  -- the second layer's result, and its copy in the narrower format
  have e9 : V9 m outs c main_v52
      = val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
    refine (after_hostOps2_v52 (V8 m outs c)).trans ?_
    rw [e8, V8_keep m outs c main_arg1 (by decide) (by decide) (by decide) (by decide) (by decide) (by decide) (by decide) (by decide), V8_keep m outs c main_arg6 (by decide) (by decide) (by decide) (by decide) (by decide) (by decide) (by decide) (by decide),
      V8_keep m outs c main_arg7 (by decide) (by decide) (by decide) (by decide) (by decide) (by decide) (by decide) (by decide), V8_v12, V8_keep m outs c main_arg5 (by decide) (by decide) (by decide) (by decide) (by decide) (by decide) (by decide) (by decide), ref_v56, ref_v12]
  have e9b : V9 m outs c main_v53
      = val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
    refine (after_hostOps2_v53 (V8 m outs c)).trans ?_
    rw [truncf_ideal, e8, V8_keep m outs c main_arg1 (by decide) (by decide) (by decide) (by decide) (by decide) (by decide) (by decide) (by decide), V8_keep m outs c main_arg6 (by decide) (by decide) (by decide) (by decide) (by decide) (by decide) (by decide) (by decide),
      V8_keep m outs c main_arg7 (by decide) (by decide) (by decide) (by decide) (by decide) (by decide) (by decide) (by decide), V8_v12, V8_keep m outs c main_arg5 (by decide) (by decide) (by decide) (by decide) (by decide) (by decide) (by decide) (by decide), ref_v56, ref_v12]
  refine ⟨?_, (V10_of m outs c main_v52 (by decide)).trans e9⟩
  refine (Function.update_self _ _ _).trans ?_
  rw [h2, e9b, ref_v58_eq]

end Cert.Bridge

end
-- ==== Proof.lean ====
/-
  The certificate's claim for a two-layer weighted graph convolution with an inner-product decoder.

  Both programs compute, from node features X, edge weights w, edge endpoints (src, dst) and two weight matrices
  with biases, the degree normalisations a = clip(deg_out, 1)^(-1/2) and b = clip(deg_in, 1)^(-1/2), then twice the layer
  x ↦ (Σ over the edges into a node of ((x · a) W)[src] · w) · b + bias, and return (x₂ x₂ᵀ, x₂). The kernel program
  computes the two products (x · a) W and the product x₂ x₂ᵀ by three pallas_calls, tile by tile; the reference computes
  them by whole-array dot products; every other operation is the same host operation in both programs.

  At the extended reals a change of float format is the identity and a tile's product into a zero accumulator is the plain
  sum, so each pallas_call leaves in its output array exactly the whole-array product the reference computes
  (`Cert.Spec.scaledProduct`, `Cert.Spec.gram`); the host operations between them, being the same operations, carry equal
  arrays to equal arrays. No algebraic law beyond reading both sides at an index is needed, and the precondition is not used.

  The frames: each kernel program's run is @main as ten segments (host stretches and the three pallas_calls), each
  pallas_call's pipeline discharged from its body's run; the reference's frame is its run with the results dropped.
  The ideal pass rewrote nothing, so `preserves` is trivial.
-/
import proofs.«127199_j2207613190405_2_alg».proof.Defs
import proofs.«127199_j2207613190405_2_alg».proof.Proof.Gen.Kernel
import proofs.«127199_j2207613190405_2_alg».proof.Proof.Gen.KernelIdeal
import proofs.«127199_j2207613190405_2_alg».proof.Proof.Gen.ReferenceIdeal
import proofs.«127199_j2207613190405_2_alg».proof.Proof.Gen.Pre_finite_inputs
import proofs.«127199_j2207613190405_2_alg».proof.Proof.Gen.ReferenceIdeal.Run
import proofs.«127199_j2207613190405_2_alg».proof.Proof.Gen.ReferenceIdeal.Read
import proofs.«127199_j2207613190405_2_alg».proof.Proof.Bits.Run
import proofs.«127199_j2207613190405_2_alg».proof.Proof.Ideal.Run
import proofs.«127199_j2207613190405_2_alg».proof.Proof.Ideal.Value0
import proofs.«127199_j2207613190405_2_alg».proof.Proof.Ideal.Value1
import proofs.«127199_j2207613190405_2_alg».proof.Proof.Ideal.Value2
import proofs.«127199_j2207613190405_2_alg».proof.Proof.HostBridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section Algebraic

open Cert.KernelIdeal Cert.KernelIdeal.Gen Cert.KernelIdeal.Hand

variable (m : (ℓ : Loc nD τ sig) → Buf (Elt Ideal) ℓ)

/-- The first pallas_call leaves the scaled product of what it found. -/
theorem out0 (c : Dev nD) :
    outs m 6 main_v14 c = Cert.Spec.scaledProduct (V5 m c main_arg0) (V5 m c main_v13) (V5 m c main_arg2) :=
  (outs_6 m c).trans ((o6_eq m c).symm.trans (Cert.KernelIdeal.HandValue.region0_value (E5 m) c))

/-- The second pallas_call likewise, of the first layer's output. -/
theorem out1 (c : Dev nD) :
    outs m 8 main_v34 c = Cert.Spec.scaledProduct (V7 m (outs m) c main_v32) (V7 m (outs m) c main_v33) (V7 m (outs m) c main_arg4) := by
  rw [← E7_eq m c main_v32, ← E7_eq m c main_v33, ← E7_eq m c main_arg4]
  exact (outs_8 m c).trans ((o8_eq m c).symm.trans (Cert.KernelIdeal.HandValue.region1_value (E7 m) c))

/-- The third pallas_call leaves the product of the second layer's output with its own transpose. -/
theorem out2 (c : Dev nD) : outs m 10 main_v54 c = Cert.Spec.gram (V9 m (outs m) c main_v53) := by
  rw [← E9_eq m c main_v53]
  exact (outs_10 m c).trans ((o10_eq m c).symm.trans (Cert.KernelIdeal.HandValue.region2_value (E9 m) c))

end Algebraic

/-- Both programs end, from memories agreeing on the arguments, with the reference's two stage functions of the arguments
    in their result arrays: the kernel program by its run and the bridge, the reference by its generated run. -/
theorem algebraic : Cert.algebraic_KernelIdeal_ReferenceIdeal := by
  intro m ρ m' ρ' _ hagree
  refine ⟨fun c => Cert.ReferenceIdeal.Value.res_main_v58 m' c, fun c => Cert.ReferenceIdeal.Value.res_main_v56 m' c, ?_,
    Cert.ReferenceIdeal.Value.run (F := Ideal) m' ρ'⟩
  refine (θ_run Cert.KernelIdeal.defs _ _).mono (fun r h c => ?_) (Cert.KernelIdeal.Hand.run_all m ρ)
  have hk := Cert.Bridge.kernel_results m (Cert.KernelIdeal.Hand.outs m) c (out0 m c) (out1 m c) (out2 m c)
  have hr58 := Cert.ReferenceIdeal.Read.val_main_v58_eq (F := Ideal) m' c
  have hr56 := Cert.ReferenceIdeal.Read.val_main_v56_eq (F := Ideal) m' c
  rw [(hagree c).1, (hagree c).2.1, (hagree c).2.2.1, (hagree c).2.2.2.1, (hagree c).2.2.2.2.1, (hagree c).2.2.2.2.2.1,
    (hagree c).2.2.2.2.2.2.1, (hagree c).2.2.2.2.2.2.2] at hr58 hr56
  exact ⟨(h c _ (Cert.KernelIdeal.Hand.mem_uc Cert.KernelIdeal.main_v54 (by decide))).trans (hk.1.trans hr58.symm),
    (h c _ (Cert.KernelIdeal.Hand.mem_uc Cert.KernelIdeal.main_v52 (by decide))).trans (hk.2.trans hr56.symm),
    (h c _ (Cert.KernelIdeal.Hand.mem_uc Cert.KernelIdeal.main_arg0 (by decide))).trans (Cert.KernelIdeal.Gen.V10_main_arg0 m _ c),
    (h c _ (Cert.KernelIdeal.Hand.mem_uc Cert.KernelIdeal.main_arg1 (by decide))).trans (Cert.KernelIdeal.Gen.V10_main_arg1 m _ c),
    (h c _ (Cert.KernelIdeal.Hand.mem_uc Cert.KernelIdeal.main_arg2 (by decide))).trans (Cert.KernelIdeal.Gen.V10_main_arg2 m _ c),
    (h c _ (Cert.KernelIdeal.Hand.mem_uc Cert.KernelIdeal.main_arg3 (by decide))).trans (Cert.KernelIdeal.Gen.V10_main_arg3 m _ c),
    (h c _ (Cert.KernelIdeal.Hand.mem_uc Cert.KernelIdeal.main_arg4 (by decide))).trans (Cert.KernelIdeal.Gen.V10_main_arg4 m _ c),
    (h c _ (Cert.KernelIdeal.Hand.mem_uc Cert.KernelIdeal.main_arg5 (by decide))).trans (Cert.KernelIdeal.Gen.V10_main_arg5 m _ c),
    (h c _ (Cert.KernelIdeal.Hand.mem_uc Cert.KernelIdeal.main_arg6 (by decide))).trans (Cert.KernelIdeal.Gen.V10_main_arg6 m _ c),
    (h c _ (Cert.KernelIdeal.Hand.mem_uc Cert.KernelIdeal.main_arg7 (by decide))).trans (Cert.KernelIdeal.Gen.V10_main_arg7 m _ c)⟩

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
